-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x2048 .f32) (main_arg1 : FVec F S8192x2048 .f32) (main_arg2 : FVec F S8192x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S1x2048 : Shape := ⟨2, ![1, 2048]⟩
abbrev S1024x512 : Shape := ⟨2, ![1024, 512]⟩
abbrev S512x512 : Shape := ⟨2, ![512, 512]⟩
abbrev S1x512 : Shape := ⟨2, ![1, 512]⟩

abbrev nBuf : Space → Nat
  | .hbm => 23
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192x4096, .bf16⟩
  | .hbm, ⟨13, _⟩ => ⟨S2048x4096, .bf16⟩
  | .hbm, ⟨14, _⟩ => ⟨S2048x4096, .bf16⟩
  | .hbm, ⟨15, _⟩ => ⟨S2048x4096, .bf16⟩
  | .hbm, ⟨16, _⟩ => ⟨S2048x4096, .bf16⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S8192x2048, .f32⟩
  | .hbm, ⟨22, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | .local _ .vmem, ⟨24, _⟩ => ⟨S1024x512, .f32⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v43 : BitVec 1 := Scalar.cmpi .eq arg2 c7_i32
  let v44 : BitVec 32 := Scalar.extui v43
  let c0_i32_35 : BitVec 32 := 0#32
  let v45 : BitVec 1 := Scalar.cmpi .ne v44 c0_i32_35
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

class Facts₀ : Prop where
  concatenates_S8192x2048_S8192x2048_S8192x4096_d1 : Shape.Concatenates [S8192x2048, S8192x2048] S8192x4096 1
  bitsLt_bf16_f32 : FTy.bits .bf16 < FTy.bits .f32
  shapeCasts_S2048_S1x2048 : S2048.ShapeCasts S1x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x4096.size a
  hwx0_1 : ∀ i : grid0.Coords, EltTy.bits .bf16 = 32 ∨ (Rect.block (s := S2048x4096) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x4096.size a
  hwx0_2 : ∀ i : grid0.Coords, EltTy.bits .bf16 = 32 ∨ (Rect.block (s := S2048x4096) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x4096.size a
  hwx0_3 : ∀ i : grid0.Coords, EltTy.bits .bf16 = 32 ∨ (Rect.block (s := S2048x4096) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x4096.size a
  hwx0_4 : ∀ i : grid0.Coords, EltTy.bits .bf16 = 32 ∨ (Rect.block (s := S2048x4096) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x2048.size a
  hwx0_8 : ∀ i : grid0.Coords, EltTy.bits .f32 = 32 ∨ (Rect.block (s := S1x2048) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S8192x2048.size a
  hwx0_9 : ∀ i : grid0.Coords, EltTy.bits .f32 = 32 ∨ (Rect.block (s := S8192x2048) S1024x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x512.size a ≤ S8192x2048.size a
  hwx0_10 : ∀ i : grid0.Coords, EltTy.bits .f32 = 32 ∨ (Rect.block (s := S8192x2048) S1024x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S8192x2048.size a
  hwx0_11 : ∀ i : grid0.Coords, EltTy.bits .f32 = 32 ∨ (Rect.block (s := S8192x2048) S1024x512.size (cc0_transform_11 i) (hinb0_11 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S1024x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10_0) S1024x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v10_1) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S8192 : Shape := ⟨1, ![8192]⟩
abbrev S4096x8192 : Shape := ⟨2, ![4096, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S8192x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S8192x8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.Spec.lean ====
/-
  The LSTM cell as ONE function of the argument arrays, index by index, on the extended reals.

  With `comb = [x | h]` (8192 × 4096), a gate's pre-activation at row `r` and hidden unit `c` is
  `lin comb W b r c = (∑ k, comb[r, k] · W[c, k]) + b[c]` (the weights are stored one ROW per hidden unit, so
  both factors are read along their second axis); the new cell state is
  `σ(lin_f) · c_prev + σ(lin_i) · tanh(lin_c)` and the new hidden state `σ(lin_o) · tanh(c_new)`.

  The same pre-activation also arises as an ACCUMULATION: start from the bias and add, for each of the eight
  consecutive chunks of 512 contraction indices, that chunk's partial inner product. `acc_eq_lin` says the two
  agree; it only regroups a finite sum in a commutative monoid (no cancellation, no distributivity), so it holds
  for every extended real, the infinities included.
-/
import Idealize.ShloMosaic.PureOps.Ideal
import Idealize.ShloMosaic.Lib.ValueIdx

noncomputable section

namespace Cert.Lstm

open Idealize.ShloMosaic Idealize.ShloMosaic.ValueIdx

/-- Activations and states: 8192 rows, 2048 hidden units. -/
abbrev SAct : Shape := ⟨2, ![8192, 2048]⟩
/-- The concatenated input `[x | h]`: 8192 rows, 4096 features. -/
abbrev SComb : Shape := ⟨2, ![8192, 4096]⟩
/-- One gate's weights: 2048 hidden units, 4096 features each. -/
abbrev SWt : Shape := ⟨2, ![2048, 4096]⟩
/-- One gate's bias. -/
abbrev SBias : Shape := ⟨1, ![2048]⟩

/-- The `k`-th product of the inner product for output `(r, c)`, extended by `0` past the 4096 features. -/
def term (comb : SComb.Idx → EReal) (W : SWt.Idx → EReal) (r : Fin 8192) (c : Fin 2048) (k : ℕ) : EReal :=
  if h : k < 4096 then comb (ix2 r ⟨k, h⟩) * W (ix2 c ⟨k, h⟩) else 0

theorem term_of_lt (comb : SComb.Idx → EReal) (W : SWt.Idx → EReal) (r : Fin 8192) (c : Fin 2048) (k : ℕ) (h : k < 4096) :
    term comb W r c k = comb (ix2 r ⟨k, h⟩) * W (ix2 c ⟨k, h⟩) := dif_pos h

/-- A gate's pre-activation: the row of `comb` against the unit's weight row, plus the unit's bias. -/
def lin (comb : SComb.Idx → EReal) (W : SWt.Idx → EReal) (b : SBias.Idx → EReal) (r : Fin 8192) (c : Fin 2048) : EReal :=
  (∑ k : Fin 4096, comb (ix2 r k) * W (ix2 c k)) + b (ix1 c)

/-- A sum over `K` consecutive blocks of `B` indices is the sum over all `B · K` indices. -/
theorem sum_range_blocks {M : Type*} [AddCommMonoid M] (f : ℕ → M) (B : ℕ) :
    ∀ K : ℕ, ∑ s ∈ Finset.range K, ∑ l ∈ Finset.range B, f (B * s + l) = ∑ k ∈ Finset.range (B * K), f k
  | 0 => by simp
  | K + 1 => by rw [Finset.sum_range_succ, sum_range_blocks f B K, Nat.mul_succ, Finset.sum_range_add]

/-- Bias first, then the eight chunks' partial inner products one after the other: the pre-activation. -/
theorem acc_eq_lin (comb : SComb.Idx → EReal) (W : SWt.Idx → EReal) (b : SBias.Idx → EReal) (r : Fin 8192) (c : Fin 2048)
    (Z : EReal) (hZ : Z = b (ix1 c)) (A : ℕ → EReal)
    (hA : ∀ s, s < 8 → A s = ∑ l ∈ Finset.range 512, term comb W r c (512 * s + l)) :
    Z + ∑ s ∈ Finset.range 8, A s = lin comb W b r c := by
  have h1 : ∑ s ∈ Finset.range 8, A s = ∑ s ∈ Finset.range 8, ∑ l ∈ Finset.range 512, term comb W r c (512 * s + l) :=
    Finset.sum_congr rfl fun s hs => hA s (Finset.mem_range.1 hs)
  rw [h1, sum_range_blocks, hZ, add_comm]
  unfold lin
  refine congrArg (· + b (ix1 c)) ?_
  rw [← Fin.sum_univ_eq_sum_range (fun k => term comb W r c k) (512 * 8)]
  exact Finset.sum_congr rfl fun k _ => term_of_lt comb W r c k.val k.isLt

/-- The new cell state from the three pre-activations and the old state. -/
def cellNext (f i g cp : EReal) : EReal := Ideal.logistic f * cp + Ideal.logistic i * Ideal.tanh g

/-- The new hidden state from the output gate's pre-activation and the new cell state. -/
def hidNext (o cn : EReal) : EReal := Ideal.logistic o * Ideal.tanh cn

/-- The new cell state, as an array. -/
def cOut (comb : SComb.Idx → EReal) (Wf : SWt.Idx → EReal) (bf : SBias.Idx → EReal) (Wi : SWt.Idx → EReal) (bi : SBias.Idx → EReal)
    (Wc : SWt.Idx → EReal) (bc : SBias.Idx → EReal) (cp : SAct.Idx → EReal) : SAct.Idx → EReal := fun i =>
  cellNext (lin comb Wf bf (i 0) (i 1)) (lin comb Wi bi (i 0) (i 1)) (lin comb Wc bc (i 0) (i 1)) (cp i)

/-- The new hidden state, as an array. -/
def hOut (comb : SComb.Idx → EReal) (Wf : SWt.Idx → EReal) (bf : SBias.Idx → EReal) (Wi : SWt.Idx → EReal) (bi : SBias.Idx → EReal)
    (Wc : SWt.Idx → EReal) (bc : SBias.Idx → EReal) (Wo : SWt.Idx → EReal) (bo : SBias.Idx → EReal) (cp : SAct.Idx → EReal) :
    SAct.Idx → EReal := fun i =>
  hidNext (lin comb Wo bo (i 0) (i 1)) (cOut comb Wf bf Wi bi Wc bc cp i)

/-- The float pattern `1.0` denotes the real `1`. -/
theorem ofBits_one : Ideal.ofBits .f32 0x3F800000#32 = 1 := by
  simp [Ideal.ofBits, Ideal.ieee, -EReal.coe_mul]; norm_num

/-- The logistic function spelt out: `1 / (1 + e^(-x))` with `1` as the float pattern `1.0`. -/
theorem logistic_spelt (x : EReal) :
    Ideal.div (Ideal.ofBits .f32 0x3F800000#32) (Ideal.ofBits .f32 0x3F800000#32 + Ideal.exp (-x)) = Ideal.logistic x := by
  rw [ofBits_one]; rfl

end Cert.Lstm

end
-- ==== Proof.RefCell.lean ====
/-
  The reference program's two results are the LSTM cell of Spec.lean.

  The reference stacks the four weight matrices one above the other (8192 rows of 4096), multiplies `[x | h]` with the
  transpose once, adds the four biases laid end to end, and cuts the 8192 columns into the four gates' 2048.
  Column `2048·g + c` of that product is the inner product of a row of `[x | h]` with row `c` of gate `g`'s weights,
  plus gate `g`'s bias at `c`: gate `g`'s pre-activation `lin`. The logistic function is spelt `1 / (1 + e^(-x))`.
-/
import proofs.«127543_j81930796139238_2_alg».proof.Proof.Gen.ReferenceIdeal.Read
import proofs.«127543_j81930796139238_2_alg».proof.Proof.Spec
import Idealize.ShloMosaic.Lib.Pipeline.Value

noncomputable section

namespace Cert.Lstm.Ref

open Cert.ReferenceIdeal Cert.ReferenceIdeal.Gen Cert.ReferenceIdeal.Read Idealize.ShloMosaic Idealize.ShloMosaic.ValueIdx Cert.Lstm

variable (x0 x1 x2 : (⟨S8192x2048, .f32⟩ : BufTy).Contents (Elt Ideal))
  (x3 x5 x7 x9 : (⟨S2048x4096, .f32⟩ : BufTy).Contents (Elt Ideal))
  (x4 x6 x8 x10 : (⟨S2048, .f32⟩ : BufTy).Contents (Elt Ideal))

/-- Row `0 + c` of the stacked weights is row `c` of the forget gate's. -/
theorem wall_0 (c : Fin 2048) (k : Fin 4096) (j : S8192x4096.Idx) (h0 : (j 0).val = 0 + c.val) (h1 : (j 1).val = k.val) :
    val_main_v1 (F := Ideal) x3 x5 x7 x9 j = x3 (ix2 c k) := by
  unfold val_main_v1
  refine concatenate_apply_piece (0 : Fin 2) [⟨S2048x4096, x3⟩, ⟨S2048x4096, x5⟩, ⟨S2048x4096, x7⟩, ⟨S2048x4096, x9⟩] (by exact concatenates_S2048x4096_S2048x4096_S2048x4096_S2048x4096_S8192x4096_d0) j 0 (by simp) S2048x4096 x3 rfl rfl 0 (by rfl) (ix2 c k) ?_ ?_
  · intro b hb
    match b with
    | ⟨0, _⟩ => exact absurd rfl hb
    | ⟨1, _⟩ => exact h1.symm
  · exact h0.symm

/-- Entry `0 + c` of the biases laid end to end is entry `c` of the forget gate's. -/
theorem ball_0 (c : Fin 2048) (j : S8192.Idx) (h0 : (j 0).val = 0 + c.val) :
    val_main_v2 (F := Ideal) x4 x6 x8 x10 j = x4 (ix1 c) := by
  unfold val_main_v2
  refine concatenate_apply_piece (0 : Fin 1) [⟨S2048, x4⟩, ⟨S2048, x6⟩, ⟨S2048, x8⟩, ⟨S2048, x10⟩] (by exact concatenates_S2048_S2048_S2048_S2048_S8192_d0) j 0 (by simp) S2048 x4 rfl rfl 0 (by rfl) (ix1 c) ?_ ?_
  · intro b hb
    match b with
    | ⟨0, _⟩ => exact absurd rfl hb
  · exact h0.symm

/-- The forget gate's columns of the biased product are its pre-activation. -/
theorem gate_0 (i : S8192x2048.Idx) :
    val_main_v7 (F := Ideal) x0 x1 x3 x4 x5 x6 x7 x8 x9 x10 (idx_main_v8 i) = lin (val_main_v0 (F := Ideal) x0 x1) x3 x4 (i 0) (i 1) := by
  rw [val_main_v7_apply, val_main_v4_apply, val_main_v6_apply, val_main_v5_apply]
  unfold lin
  refine congrArg₂ (· + ·) (Finset.sum_congr rfl fun k _ => congrArg₂ (· * ·) (congrArg _ ?_) ?_) ?_
  · exact funext fun a => Fin.ext (by match a with | ⟨0, _⟩ => rfl | ⟨1, _⟩ => rfl)
  · rw [val_main_v3_apply]
    exact wall_0 x3 x5 x7 x9 (i 1) k _ (by show (i 1).val = 0 + (i 1).val; omega) rfl
  · exact ball_0 x4 x6 x8 x10 (i 1) _ (by show (i 1).val = 0 + (i 1).val; omega)

/-- Row `2048 + c` of the stacked weights is row `c` of the input gate's. -/
theorem wall_1 (c : Fin 2048) (k : Fin 4096) (j : S8192x4096.Idx) (h0 : (j 0).val = 2048 + c.val) (h1 : (j 1).val = k.val) :
    val_main_v1 (F := Ideal) x3 x5 x7 x9 j = x5 (ix2 c k) := by
  unfold val_main_v1
  refine concatenate_apply_piece (0 : Fin 2) [⟨S2048x4096, x3⟩, ⟨S2048x4096, x5⟩, ⟨S2048x4096, x7⟩, ⟨S2048x4096, x9⟩] (by exact concatenates_S2048x4096_S2048x4096_S2048x4096_S2048x4096_S8192x4096_d0) j 1 (by simp) S2048x4096 x5 rfl rfl 2048 (by rfl) (ix2 c k) ?_ ?_
  · intro b hb
    match b with
    | ⟨0, _⟩ => exact absurd rfl hb
    | ⟨1, _⟩ => exact h1.symm
  · exact h0.symm

/-- Entry `2048 + c` of the biases laid end to end is entry `c` of the input gate's. -/
theorem ball_1 (c : Fin 2048) (j : S8192.Idx) (h0 : (j 0).val = 2048 + c.val) :
    val_main_v2 (F := Ideal) x4 x6 x8 x10 j = x6 (ix1 c) := by
  unfold val_main_v2
  refine concatenate_apply_piece (0 : Fin 1) [⟨S2048, x4⟩, ⟨S2048, x6⟩, ⟨S2048, x8⟩, ⟨S2048, x10⟩] (by exact concatenates_S2048_S2048_S2048_S2048_S8192_d0) j 1 (by simp) S2048 x6 rfl rfl 2048 (by rfl) (ix1 c) ?_ ?_
  · intro b hb
    match b with
    | ⟨0, _⟩ => exact absurd rfl hb
  · exact h0.symm

/-- The input gate's columns of the biased product are its pre-activation. -/
theorem gate_1 (i : S8192x2048.Idx) :
    val_main_v7 (F := Ideal) x0 x1 x3 x4 x5 x6 x7 x8 x9 x10 (idx_main_v9 i) = lin (val_main_v0 (F := Ideal) x0 x1) x5 x6 (i 0) (i 1) := by
  rw [val_main_v7_apply, val_main_v4_apply, val_main_v6_apply, val_main_v5_apply]
  unfold lin
  refine congrArg₂ (· + ·) (Finset.sum_congr rfl fun k _ => congrArg₂ (· * ·) (congrArg _ ?_) ?_) ?_
  · exact funext fun a => Fin.ext (by match a with | ⟨0, _⟩ => rfl | ⟨1, _⟩ => rfl)
  · rw [val_main_v3_apply]
    exact wall_1 x3 x5 x7 x9 (i 1) k _ (by show 2048 + (i 1).val = 2048 + (i 1).val; omega) rfl
  · exact ball_1 x4 x6 x8 x10 (i 1) _ (by show 2048 + (i 1).val = 2048 + (i 1).val; omega)

/-- Row `4096 + c` of the stacked weights is row `c` of the candidate gate's. -/
theorem wall_2 (c : Fin 2048) (k : Fin 4096) (j : S8192x4096.Idx) (h0 : (j 0).val = 4096 + c.val) (h1 : (j 1).val = k.val) :
    val_main_v1 (F := Ideal) x3 x5 x7 x9 j = x7 (ix2 c k) := by
  unfold val_main_v1
  refine concatenate_apply_piece (0 : Fin 2) [⟨S2048x4096, x3⟩, ⟨S2048x4096, x5⟩, ⟨S2048x4096, x7⟩, ⟨S2048x4096, x9⟩] (by exact concatenates_S2048x4096_S2048x4096_S2048x4096_S2048x4096_S8192x4096_d0) j 2 (by simp) S2048x4096 x7 rfl rfl 4096 (by rfl) (ix2 c k) ?_ ?_
  · intro b hb
    match b with
    | ⟨0, _⟩ => exact absurd rfl hb
    | ⟨1, _⟩ => exact h1.symm
  · exact h0.symm

/-- Entry `4096 + c` of the biases laid end to end is entry `c` of the candidate gate's. -/
theorem ball_2 (c : Fin 2048) (j : S8192.Idx) (h0 : (j 0).val = 4096 + c.val) :
    val_main_v2 (F := Ideal) x4 x6 x8 x10 j = x8 (ix1 c) := by
  unfold val_main_v2
  refine concatenate_apply_piece (0 : Fin 1) [⟨S2048, x4⟩, ⟨S2048, x6⟩, ⟨S2048, x8⟩, ⟨S2048, x10⟩] (by exact concatenates_S2048_S2048_S2048_S2048_S8192_d0) j 2 (by simp) S2048 x8 rfl rfl 4096 (by rfl) (ix1 c) ?_ ?_
  · intro b hb
    match b with
    | ⟨0, _⟩ => exact absurd rfl hb
  · exact h0.symm

/-- The candidate gate's columns of the biased product are its pre-activation. -/
theorem gate_2 (i : S8192x2048.Idx) :
    val_main_v7 (F := Ideal) x0 x1 x3 x4 x5 x6 x7 x8 x9 x10 (idx_main_v10 i) = lin (val_main_v0 (F := Ideal) x0 x1) x7 x8 (i 0) (i 1) := by
  rw [val_main_v7_apply, val_main_v4_apply, val_main_v6_apply, val_main_v5_apply]
  unfold lin
  refine congrArg₂ (· + ·) (Finset.sum_congr rfl fun k _ => congrArg₂ (· * ·) (congrArg _ ?_) ?_) ?_
  · exact funext fun a => Fin.ext (by match a with | ⟨0, _⟩ => rfl | ⟨1, _⟩ => rfl)
  · rw [val_main_v3_apply]
    exact wall_2 x3 x5 x7 x9 (i 1) k _ (by show 4096 + (i 1).val = 4096 + (i 1).val; omega) rfl
  · exact ball_2 x4 x6 x8 x10 (i 1) _ (by show 4096 + (i 1).val = 4096 + (i 1).val; omega)

/-- Row `6144 + c` of the stacked weights is row `c` of the output gate's. -/
theorem wall_3 (c : Fin 2048) (k : Fin 4096) (j : S8192x4096.Idx) (h0 : (j 0).val = 6144 + c.val) (h1 : (j 1).val = k.val) :
    val_main_v1 (F := Ideal) x3 x5 x7 x9 j = x9 (ix2 c k) := by
  unfold val_main_v1
  refine concatenate_apply_piece (0 : Fin 2) [⟨S2048x4096, x3⟩, ⟨S2048x4096, x5⟩, ⟨S2048x4096, x7⟩, ⟨S2048x4096, x9⟩] (by exact concatenates_S2048x4096_S2048x4096_S2048x4096_S2048x4096_S8192x4096_d0) j 3 (by simp) S2048x4096 x9 rfl rfl 6144 (by rfl) (ix2 c k) ?_ ?_
  · intro b hb
    match b with
    | ⟨0, _⟩ => exact absurd rfl hb
    | ⟨1, _⟩ => exact h1.symm
  · exact h0.symm

/-- Entry `6144 + c` of the biases laid end to end is entry `c` of the output gate's. -/
theorem ball_3 (c : Fin 2048) (j : S8192.Idx) (h0 : (j 0).val = 6144 + c.val) :
    val_main_v2 (F := Ideal) x4 x6 x8 x10 j = x10 (ix1 c) := by
  unfold val_main_v2
  refine concatenate_apply_piece (0 : Fin 1) [⟨S2048, x4⟩, ⟨S2048, x6⟩, ⟨S2048, x8⟩, ⟨S2048, x10⟩] (by exact concatenates_S2048_S2048_S2048_S2048_S8192_d0) j 3 (by simp) S2048 x10 rfl rfl 6144 (by rfl) (ix1 c) ?_ ?_
  · intro b hb
    match b with
    | ⟨0, _⟩ => exact absurd rfl hb
  · exact h0.symm

/-- The output gate's columns of the biased product are its pre-activation. -/
theorem gate_3 (i : S8192x2048.Idx) :
    val_main_v7 (F := Ideal) x0 x1 x3 x4 x5 x6 x7 x8 x9 x10 (idx_main_v11 i) = lin (val_main_v0 (F := Ideal) x0 x1) x9 x10 (i 0) (i 1) := by
  rw [val_main_v7_apply, val_main_v4_apply, val_main_v6_apply, val_main_v5_apply]
  unfold lin
  refine congrArg₂ (· + ·) (Finset.sum_congr rfl fun k _ => congrArg₂ (· * ·) (congrArg _ ?_) ?_) ?_
  · exact funext fun a => Fin.ext (by match a with | ⟨0, _⟩ => rfl | ⟨1, _⟩ => rfl)
  · rw [val_main_v3_apply]
    exact wall_3 x3 x5 x7 x9 (i 1) k _ (by show 6144 + (i 1).val = 6144 + (i 1).val; omega) rfl
  · exact ball_3 x4 x6 x8 x10 (i 1) _ (by show 6144 + (i 1).val = 6144 + (i 1).val; omega)

/-- The reference's second result, the new cell state. -/
theorem cell_eq : val_main_v27 (F := Ideal) x0 x1 x2 x3 x4 x5 x6 x7 x8 x9 x10 = cOut (val_main_v0 (F := Ideal) x0 x1) x3 x4 x5 x6 x7 x8 x2 := by
  funext i
  simp only [val_main_v27_apply, val_main_v25_apply, val_main_v26_apply, val_main_v17_apply, val_main_v23_apply, val_main_v24_apply,
    val_main_v16_apply, val_main_v22_apply, val_main_v15_apply, val_main_v21_apply, val_main_v14_apply, val_main_v20_apply,
    val_main_v13_apply, val_main_v19_apply, val_main_v12_apply, val_main_v18_apply, val_main_cst_apply, val_main_cst_0_apply,
    val_main_cst_1_apply, val_main_cst_2_apply, val_main_v8_apply, val_main_v9_apply, val_main_v10_apply,
    gate_0, gate_1, gate_2]
  simp only [Ideal.addf_def, Ideal.mulf_def, Ideal.hostDivf_def, Ideal.hostUnary_exp_def, Ideal.hostUnary_tanh_def, Ideal.hostNegf_def,
    Ideal.negf_def, Ideal.ofBits_def, logistic_spelt]
  rfl

/-- The reference's first result, the new hidden state. -/
theorem hidden_eq : val_main_v35 (F := Ideal) x0 x1 x2 x3 x4 x5 x6 x7 x8 x9 x10 = hOut (val_main_v0 (F := Ideal) x0 x1) x3 x4 x5 x6 x7 x8 x9 x10 x2 := by
  funext i
  have hc := congrFun (cell_eq x0 x1 x2 x3 x5 x7 x9 x4 x6 x8 x10) i
  simp only [val_main_v35_apply, val_main_v33_apply, val_main_v34_apply, val_main_v32_apply, val_main_v31_apply, val_main_v30_apply,
    val_main_v29_apply, val_main_v28_apply, val_main_cst_3_apply, val_main_cst_4_apply, val_main_v11_apply, gate_3, hc]
  simp only [Ideal.addf_def, Ideal.mulf_def, Ideal.hostDivf_def, Ideal.hostUnary_exp_def, Ideal.hostUnary_tanh_def, Ideal.hostNegf_def,
    Ideal.negf_def, Ideal.ofBits_def, logistic_spelt]
  rfl

end Cert.Lstm.Ref

end
-- ==== Proof.KPieces.lean ====
/-
  What one grid point leaves in each of the four accumulators and, at the last step of a sweep, in the two output blocks —
  as the body's arithmetic of the blocks it loaded.

  A point (m, h, k) of the 8 × 4 × 8 grid works on rows `1024·m …` and hidden units `512·h …`, at the `k`-th chunk of 512
  contraction indices. At `k = 0` each accumulator is first set to the bias row repeated down the 1024 rows and then the
  chunk's product is added; at `0 < k` the product is added to what the point before left; at `k = 7` the two output blocks
  are, in addition, computed from the four accumulators just updated and the block of the old cell state.
  Each statement below says that the contents found by running the body are that arithmetic, for any float instance.
-/
import proofs.«127543_j81930796139238_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Lstm

open Cert.KernelIdeal Cert.KernelIdeal.Gen

variable {F : FTy → Type} [FloatOps F]

theorem hz : (![0, 0] : Fin 2 → Nat) = fun _ => 0 := funext fun a => by fin_cases a <;> rfl

/-- First step of a sweep, accumulator 0: the bias row repeated, plus the chunk's product. -/
theorem first_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : cond0_0 i) (hc1 : ¬cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay9 (k0_pay5 x5) x0 x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- A middle step, accumulator 0: what the point before left, plus the chunk's product. -/
theorem mid_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : ¬cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) (xs0 : Vec F S1024x512 .f32) (xs1 : Vec F S1024x512 .f32) (xs2 : Vec F S1024x512 .f32) (xs3 : Vec F S1024x512 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay9 xs0 x0 x1 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- Last step of a sweep, accumulator 0: what the point before left, plus the chunk's product. -/
theorem last_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) (xs0 : Vec F S1024x512 .f32) (xs1 : Vec F S1024x512 .f32) (xs2 : Vec F S1024x512 .f32) (xs3 : Vec F S1024x512 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay9 xs0 x0 x1 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- First step of a sweep, accumulator 1: the bias row repeated, plus the chunk's product. -/
theorem first_1 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : cond0_0 i) (hc1 : ¬cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay10 (k0_pay6 x6) x0 x2 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- A middle step, accumulator 1: what the point before left, plus the chunk's product. -/
theorem mid_1 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : ¬cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) (xs0 : Vec F S1024x512 .f32) (xs1 : Vec F S1024x512 .f32) (xs2 : Vec F S1024x512 .f32) (xs3 : Vec F S1024x512 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay10 xs1 x0 x2 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- Last step of a sweep, accumulator 1: what the point before left, plus the chunk's product. -/
theorem last_1 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) (xs0 : Vec F S1024x512 .f32) (xs1 : Vec F S1024x512 .f32) (xs2 : Vec F S1024x512 .f32) (xs3 : Vec F S1024x512 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay10 xs1 x0 x2 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- First step of a sweep, accumulator 2: the bias row repeated, plus the chunk's product. -/
theorem first_2 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : cond0_0 i) (hc1 : ¬cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay1 (k0_pay7 x7) (k0_pay11 x0) (k0_pay12 x3) := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- A middle step, accumulator 2: what the point before left, plus the chunk's product. -/
theorem mid_2 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : ¬cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) (xs0 : Vec F S1024x512 .f32) (xs1 : Vec F S1024x512 .f32) (xs2 : Vec F S1024x512 .f32) (xs3 : Vec F S1024x512 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay1 xs2 (k0_pay11 x0) (k0_pay12 x3) := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- Last step of a sweep, accumulator 2: what the point before left, plus the chunk's product. -/
theorem last_2 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) (xs0 : Vec F S1024x512 .f32) (xs1 : Vec F S1024x512 .f32) (xs2 : Vec F S1024x512 .f32) (xs3 : Vec F S1024x512 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay1 xs2 (k0_pay11 x0) (k0_pay12 x3) := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- First step of a sweep, accumulator 3: the bias row repeated, plus the chunk's product. -/
theorem first_3 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : cond0_0 i) (hc1 : ¬cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 = k0_pay2 (k0_pay8 x8) x0 x4 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9)]
  unfold kernelRun0_A
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- A middle step, accumulator 3: what the point before left, plus the chunk's product. -/
theorem mid_3 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : ¬cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) (xs0 : Vec F S1024x512 .f32) (xs1 : Vec F S1024x512 .f32) (xs2 : Vec F S1024x512 .f32) (xs3 : Vec F S1024x512 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay2 xs3 x0 x4 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_B
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- Last step of a sweep, accumulator 3: what the point before left, plus the chunk's product. -/
theorem last_3 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) (xs0 : Vec F S1024x512 .f32) (xs1 : Vec F S1024x512 .f32) (xs2 : Vec F S1024x512 .f32) (xs3 : Vec F S1024x512 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay2 xs3 x0 x4 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- Last step of a sweep, the new cell state's block: from the three accumulators just updated and the old state's block. -/
theorem last_cell (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) (xs0 : Vec F S1024x512 .f32) (xs1 : Vec F S1024x512 .f32) (xs2 : Vec F S1024x512 .f32) (xs3 : Vec F S1024x512 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay3 (k0_pay9 xs0 x0 x1) (k0_pay10 xs1 x0 x2) (k0_pay1 xs2 (k0_pay11 x0) (k0_pay12 x3)) x9 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

/-- Last step of a sweep, the new hidden state's block: from all four accumulators just updated and the old state's block. -/
theorem last_hidden (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .f32) (harg12 : arg12.IsWhole) (arg13 : Memref sig .tc .vmem S1024x512 .f32) (harg13 : arg13.IsWhole) (arg14 : Memref sig .tc .vmem S1024x512 .f32) (harg14 : arg14.IsWhole) (arg15 : Memref sig .tc .vmem S1024x512 .f32) (harg15 : arg15.IsWhole) (arg16 : Memref sig .tc .vmem S1024x512 .f32) (harg16 : arg16.IsWhole) (arg17 : Memref sig .tc .vmem S1024x512 .f32) (harg17 : arg17.IsWhole) (arg18 : Memref sig .tc .vmem S1024x512 .f32) (harg18 : arg18.IsWhole) (hc0 : ¬cond0_0 i) (hc1 : cond0_1 i) (x0 : Vec F S1024x512 .bf16) (x1 : Vec F S512x512 .bf16) (x2 : Vec F S512x512 .bf16) (x3 : Vec F S512x512 .bf16) (x4 : Vec F S512x512 .bf16) (x5 : Vec F S1x512 .f32) (x6 : Vec F S1x512 .f32) (x7 : Vec F S1x512 .f32) (x8 : Vec F S1x512 .f32) (x9 : Vec F S1024x512 .f32) (xs0 : Vec F S1024x512 .f32) (xs1 : Vec F S1024x512 .f32) (xs2 : Vec F S1024x512 .f32) (xs3 : Vec F S1024x512 .f32) :
    out0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3 = k0_pay4 (k0_pay9 xs0 x0 x1) (k0_pay10 xs1 x0 x2) (k0_pay1 xs2 (k0_pay11 x0) (k0_pay12 x3)) x9 (k0_pay2 xs3 x0 x4) := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 xs0 xs1 xs2 xs3)]
  unfold kernelRun0_C
  dsimp only
  sl_unfold_words
  first
    | rw [View.canon_unit_zero hz]
    | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread,
    View.ld_unit_zero (S := S1024x512) hz, View.ld_unit_zero (S := S512x512) hz, View.ld_unit_zero (S := S1x512) hz]

end Cert.KernelIdeal.Lstm

end
-- ==== Proof.KPayload.lean ====
/-
  The body's arithmetic read at one entry of a 1024 × 512 block, on the extended reals.

  The matrix unit's product of a 1024 × 512 block of `[x | h]` with a 512 × 512 block of one gate's weights, both contracted
  along their SECOND axis, is at entry (r, c) the sum over the chunk's 512 indices of the products; adding it to an
  accumulator adds that sum entrywise; the bias block (one row of 512) repeated down the rows reads its entry `c`; and the
  gates' nonlinearities act entry by entry.
-/
import proofs.«127543_j81930796139238_2_alg».proof.Proof.Gen.KernelIdeal.Skeleton
import proofs.«127543_j81930796139238_2_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Lstm

open Cert.KernelIdeal Cert.KernelIdeal.Gen Cert.Lstm

/-- The left operand's row is the output's row. -/
theorem lhs_row (i : S1024x512.Idx) (q : dot_S1024x512_S512x512_S1024x512_1_1_0_0_n_n.contr.Idx) : (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl

/-- The left operand's column is the contraction position. -/
theorem lhs_col (i : S1024x512.Idx) (q : dot_S1024x512_S512x512_S1024x512_1_1_0_0_n_n.contr.Idx) : (dot_S1024x512_S512x512_S1024x512_1_1_0_0_n_n.lhsIdx i q 1).val = (q ⟨0, by decide⟩).val :=
  dot_S1024x512_S512x512_S1024x512_1_1_0_0_n_n.lhsIdx_val_of_single rfl i q

/-- The right operand's ROW is the output's column: the weights are stored one row per hidden unit. -/
theorem rhs_row (i : S1024x512.Idx) (q : dot_S1024x512_S512x512_S1024x512_1_1_0_0_n_n.contr.Idx) : (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl

/-- The right operand's column is the contraction position too. -/
theorem rhs_col (i : S1024x512.Idx) (q : dot_S1024x512_S512x512_S1024x512_1_1_0_0_n_n.contr.Idx) : (dot_S1024x512_S512x512_S1024x512_1_1_0_0_n_n.rhsIdx i q 1).val = (q ⟨0, by decide⟩).val :=
  dot_S1024x512_S512x512_S1024x512_1_1_0_0_n_n.rhsIdx_val_of_single rfl i q

/-- One chunk's product at an entry: the sum over the chunk of the products. -/
theorem chunk_at (xa : FVec Ideal S1024x512 .bf16) (xw : FVec Ideal S512x512 .bf16) (r : Fin 1024) (c : Fin 512) :
    matmul dot_S1024x512_S512x512_S1024x512_1_1_0_0_n_n none xa xw (constant (F := Ideal) S1024x512 .f32 0x00000000#32) (ix2 r c)
      = ∑ l : Fin 512, xa (ix2 r l) * xw (ix2 c l) := by
  refine (Ideal.matmul_constant_zero_apply dot_S1024x512_S512x512_S1024x512_1_1_0_0_n_n none xa xw (ix2 r c)).trans ?_
  rw [← Equiv.sum_comp (contrEquiv1 dot_S1024x512_S512x512_S1024x512_1_1_0_0_n_n 512 rfl rfl).symm]
  refine Finset.sum_congr rfl fun l _ => ?_
  have hl := contrEquiv1_symm_val dot_S1024x512_S512x512_S1024x512_1_1_0_0_n_n 512 rfl rfl l
  have el : dot_S1024x512_S512x512_S1024x512_1_1_0_0_n_n.lhsIdx (ix2 r c) ((contrEquiv1 dot_S1024x512_S512x512_S1024x512_1_1_0_0_n_n 512 rfl rfl).symm l) = ix2 r l := funext fun a => Fin.ext (by
    match a with
    | ⟨0, _⟩ => exact lhs_row _ _
    | ⟨1, _⟩ => exact (lhs_col _ _).trans hl)
  have er : dot_S1024x512_S512x512_S1024x512_1_1_0_0_n_n.rhsIdx (ix2 r c) ((contrEquiv1 dot_S1024x512_S512x512_S1024x512_1_1_0_0_n_n 512 rfl rfl).symm l) = ix2 c l := funext fun a => Fin.ext (by
    match a with
    | ⟨0, _⟩ => exact rhs_row _ _
    | ⟨1, _⟩ => exact (rhs_col _ _).trans hl)
  rw [el, er]

/-- A chunk's partial inner product at entry `y`, from the two loaded blocks. -/
def chunkSum (xa : Vec Ideal S1024x512 .bf16) (xw : Vec Ideal S512x512 .bf16) (y : S1024x512.Idx) : EReal :=
  ∑ l : Fin 512, xa (ix2 (y 0) l) * xw (ix2 (y 1) l)

/-- The bias block's entry in `y`'s column. -/
def biasEntry (xb : Vec Ideal S1x512 .f32) (y : S1024x512.Idx) : EReal := xb (ix2 (0 : Fin 1) (y 1))

/-- Accumulator 0's update at an entry: the old entry plus the chunk's sum. -/
theorem upd_0 (acc : Vec Ideal S1024x512 .f32) (xa : Vec Ideal S1024x512 .bf16) (xw : Vec Ideal S512x512 .bf16) (r : Fin 1024) (c : Fin 512) :
    k0_pay9 acc xa xw (ix2 r c) = acc (ix2 r c) + chunkSum xa xw (ix2 r c) := by
  unfold k0_pay9
  simp only [shapeCast_self]
  exact congrArg (acc (ix2 r c) + ·) ((chunk_at xa xw r c).trans rfl)

/-- Accumulator 1's update at an entry: the old entry plus the chunk's sum. -/
theorem upd_1 (acc : Vec Ideal S1024x512 .f32) (xa : Vec Ideal S1024x512 .bf16) (xw : Vec Ideal S512x512 .bf16) (r : Fin 1024) (c : Fin 512) :
    k0_pay10 acc xa xw (ix2 r c) = acc (ix2 r c) + chunkSum xa xw (ix2 r c) := by
  unfold k0_pay10
  simp only [shapeCast_self]
  exact congrArg (acc (ix2 r c) + ·) ((chunk_at xa xw r c).trans rfl)

/-- Accumulator 2's update at an entry: the old entry plus the chunk's sum. -/
theorem upd_2 (acc : Vec Ideal S1024x512 .f32) (xa : Vec Ideal S1024x512 .bf16) (xw : Vec Ideal S512x512 .bf16) (r : Fin 1024) (c : Fin 512) :
    k0_pay1 acc (k0_pay11 xa) (k0_pay12 xw) (ix2 r c) = acc (ix2 r c) + chunkSum xa xw (ix2 r c) := by
  unfold k0_pay1 k0_pay11 k0_pay12
  simp only [shapeCast_self]
  exact congrArg (acc (ix2 r c) + ·) ((chunk_at xa xw r c).trans rfl)

/-- Accumulator 3's update at an entry: the old entry plus the chunk's sum. -/
theorem upd_3 (acc : Vec Ideal S1024x512 .f32) (xa : Vec Ideal S1024x512 .bf16) (xw : Vec Ideal S512x512 .bf16) (r : Fin 1024) (c : Fin 512) :
    k0_pay2 acc xa xw (ix2 r c) = acc (ix2 r c) + chunkSum xa xw (ix2 r c) := by
  unfold k0_pay2
  simp only [shapeCast_self]
  exact congrArg (acc (ix2 r c) + ·) ((chunk_at xa xw r c).trans rfl)

/-- The bias block repeated down the rows, at an entry: the block's entry in that column. -/
theorem bias_0 (xb : Vec Ideal S1x512 .f32) (r : Fin 1024) (c : Fin 512) : k0_pay5 xb (ix2 r c) = biasEntry xb (ix2 r c) := by
  unfold k0_pay5
  simp only [shapeCast_self]
  exact broadcastTo_apply xb broadcasts_S1x512_S1024x512 (ix2 r c) (ix2 (0 : Fin 1) c) (fun a => by
    match a with
    | ⟨0, _⟩ => rfl
    | ⟨1, _⟩ => rfl)

/-- The bias block repeated down the rows, at an entry: the block's entry in that column. -/
theorem bias_1 (xb : Vec Ideal S1x512 .f32) (r : Fin 1024) (c : Fin 512) : k0_pay6 xb (ix2 r c) = biasEntry xb (ix2 r c) := by
  unfold k0_pay6
  simp only [shapeCast_self]
  exact broadcastTo_apply xb broadcasts_S1x512_S1024x512 (ix2 r c) (ix2 (0 : Fin 1) c) (fun a => by
    match a with
    | ⟨0, _⟩ => rfl
    | ⟨1, _⟩ => rfl)

/-- The bias block repeated down the rows, at an entry: the block's entry in that column. -/
theorem bias_2 (xb : Vec Ideal S1x512 .f32) (r : Fin 1024) (c : Fin 512) : k0_pay7 xb (ix2 r c) = biasEntry xb (ix2 r c) := by
  unfold k0_pay7
  simp only [shapeCast_self]
  exact broadcastTo_apply xb broadcasts_S1x512_S1024x512 (ix2 r c) (ix2 (0 : Fin 1) c) (fun a => by
    match a with
    | ⟨0, _⟩ => rfl
    | ⟨1, _⟩ => rfl)

/-- The bias block repeated down the rows, at an entry: the block's entry in that column. -/
theorem bias_3 (xb : Vec Ideal S1x512 .f32) (r : Fin 1024) (c : Fin 512) : k0_pay8 xb (ix2 r c) = biasEntry xb (ix2 r c) := by
  unfold k0_pay8
  simp only [shapeCast_self]
  exact broadcastTo_apply xb broadcasts_S1x512_S1024x512 (ix2 r c) (ix2 (0 : Fin 1) c) (fun a => by
    match a with
    | ⟨0, _⟩ => rfl
    | ⟨1, _⟩ => rfl)

/-- The new cell state's block, entry by entry. -/
theorem cell_at (s0 s1 s2 cp : Vec Ideal S1024x512 .f32) (i : S1024x512.Idx) :
    k0_pay3 s0 s1 s2 cp i = cellNext (s0 i) (s1 i) (s2 i) (cp i) := rfl

/-- The new hidden state's block, entry by entry. -/
theorem hidden_at (s0 s1 s2 cp s3 : Vec Ideal S1024x512 .f32) (i : S1024x512.Idx) :
    k0_pay4 s0 s1 s2 cp s3 i = hidNext (s3 i) (cellNext (s0 i) (s1 i) (s2 i) (cp i)) := rfl

end Cert.KernelIdeal.Lstm

end
-- ==== Proof.KBlocks.lean ====
/-
  The blocks the body loads at a grid point, as entries of the argument arrays.

  Before the region the program lays `x` and `h` side by side into `[x | h]` and narrows it and the four weight matrices to
  bf16 — the identity on the extended reals — and views each bias as one row. Point `t` of the grid (numbered row-major:
  `t = 32·m + 8·h + k`) loads rows `1024·m …` and columns `512·k …` of `[x | h]`; rows `512·h …` and columns `512·k …` of each
  weight matrix; entries `512·h …` of each bias; and rows `1024·m …`, columns `512·h …` of the old cell state.
-/
import proofs.«127543_j81930796139238_2_alg».proof.Proof.Gen.KernelIdeal.Frame
import proofs.«127543_j81930796139238_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Lstm

open Cert.KernelIdeal Cert.KernelIdeal.Gen Cert.Lstm

variable (m : (ℓ : Loc nD τ sig) → Buf (Elt Ideal) ℓ)

/-- `[x | h]`, the two activations side by side. -/
abbrev combOf (c : Dev nD) : SComb.Idx → EReal :=
  concatenate S8192x4096 1 [⟨S8192x2048, (m ((c : Thread nD τ).loc main_arg0))⟩, ⟨S8192x2048, (m ((c : Thread nD τ).loc main_arg1))⟩] concatenates_S8192x2048_S8192x2048_S8192x4096_d1

/-- The region finds `[x | h]` (narrowed, which changes nothing here) where the body's first operand is staged from. -/
theorem found_comb (c : Dev nD) : (V m c main_v1 : S8192x4096.Idx → EReal) = combOf m c := by
  dsimp only [Gen.V, Gen.hostOps0]; after_results; rfl

/-- … gate 0's weights (narrowed likewise), -/
theorem found_w0 (c : Dev nD) : (V m c main_v2 : S2048x4096.Idx → EReal) = (m ((c : Thread nD τ).loc main_arg3)) := by
  dsimp only [Gen.V, Gen.hostOps0]; after_results; rfl

/-- … and gate 0's bias as one row. -/
theorem found_b0 (c : Dev nD) : (V m c main_v6 : S1x2048.Idx → EReal) = shapeCast S1x2048 (m ((c : Thread nD τ).loc main_arg4)) shapeCasts_S2048_S1x2048 := by
  dsimp only [Gen.V, Gen.hostOps0]; after_results; rfl

/-- … gate 1's weights (narrowed likewise), -/
theorem found_w1 (c : Dev nD) : (V m c main_v3 : S2048x4096.Idx → EReal) = (m ((c : Thread nD τ).loc main_arg5)) := by
  dsimp only [Gen.V, Gen.hostOps0]; after_results; rfl

/-- … and gate 1's bias as one row. -/
theorem found_b1 (c : Dev nD) : (V m c main_v7 : S1x2048.Idx → EReal) = shapeCast S1x2048 (m ((c : Thread nD τ).loc main_arg6)) shapeCasts_S2048_S1x2048 := by
  dsimp only [Gen.V, Gen.hostOps0]; after_results; rfl

/-- … gate 2's weights (narrowed likewise), -/
theorem found_w2 (c : Dev nD) : (V m c main_v4 : S2048x4096.Idx → EReal) = (m ((c : Thread nD τ).loc main_arg7)) := by
  dsimp only [Gen.V, Gen.hostOps0]; after_results; rfl

/-- … and gate 2's bias as one row. -/
theorem found_b2 (c : Dev nD) : (V m c main_v8 : S1x2048.Idx → EReal) = shapeCast S1x2048 (m ((c : Thread nD τ).loc main_arg8)) shapeCasts_S2048_S1x2048 := by
  dsimp only [Gen.V, Gen.hostOps0]; after_results; rfl

/-- … gate 3's weights (narrowed likewise), -/
theorem found_w3 (c : Dev nD) : (V m c main_v5 : S2048x4096.Idx → EReal) = (m ((c : Thread nD τ).loc main_arg9)) := by
  dsimp only [Gen.V, Gen.hostOps0]; after_results; rfl

/-- … and gate 3's bias as one row. -/
theorem found_b3 (c : Dev nD) : (V m c main_v9 : S1x2048.Idx → EReal) = shapeCast S1x2048 (m ((c : Thread nD τ).loc main_arg10)) shapeCasts_S2048_S1x2048 := by
  dsimp only [Gen.V, Gen.hostOps0]; after_results; rfl

/-- A bias viewed as one row, at column `c`: its entry `c`. -/
theorem bias_row (b : S2048.Idx → EReal) (z : Fin 1) (k : Fin 2048) :
    shapeCast S1x2048 b shapeCasts_S2048_S1x2048 (ix2 z k) = b (ix1 k) :=
  shapeCast_apply b shapeCasts_S2048_S1x2048 (ix2 z k) (ix1 k) (by
    have hz : z.val = 0 := by omega
    rw [Shape.rowMajor_val_one, Shape.rowMajor_val_two]
    show k.val = z.val * 2048 + k.val
    omega)

/-- Where the windows' blocks sit at point `t`, decided over the grid: `[x | h]`, -/
theorem at_comb : ∀ t : Fin cfg0.N, win0_0.index t (0 : Fin 2) = t.val / 32 ∧ win0_0.index t (1 : Fin 2) = t.val % 8 :=
  (by decide +kernel : ∀ t : Fin grid0.N, _)

/-- the four weight matrices, -/
theorem at_w : ∀ t : Fin cfg0.N, win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = t.val / 8 % 4 ∧ win0_3.index t (1 : Fin 2) = t.val % 8
    ∧ win0_4.index t (0 : Fin 2) = t.val / 8 % 4 ∧ win0_4.index t (1 : Fin 2) = t.val % 8 :=
  (by decide +kernel : ∀ t : Fin grid0.N, _)

/-- the four biases, -/
theorem at_b : ∀ t : Fin cfg0.N, win0_5.index t (0 : Fin 2) = 0 ∧ win0_5.index t (1 : Fin 2) = t.val / 8 % 4
    ∧ win0_6.index t (0 : Fin 2) = 0 ∧ win0_6.index t (1 : Fin 2) = t.val / 8 % 4
    ∧ win0_7.index t (0 : Fin 2) = 0 ∧ win0_7.index t (1 : Fin 2) = t.val / 8 % 4
    ∧ win0_8.index t (0 : Fin 2) = 0 ∧ win0_8.index t (1 : Fin 2) = t.val / 8 % 4 :=
  (by decide +kernel : ∀ t : Fin grid0.N, _)

/-- the old cell state and the two results. -/
theorem at_act : ∀ t : Fin cfg0.N, win0_9.index t (0 : Fin 2) = t.val / 32 ∧ win0_9.index t (1 : Fin 2) = t.val / 8 % 4
    ∧ win0_10.index t (0 : Fin 2) = t.val / 32 ∧ win0_10.index t (1 : Fin 2) = t.val / 8 % 4
    ∧ win0_11.index t (0 : Fin 2) = t.val / 32 ∧ win0_11.index t (1 : Fin 2) = t.val / 8 % 4 :=
  (by decide +kernel : ∀ t : Fin grid0.N, _)

/-- The block of `[x | h]` at point `t`, entry (r, l): row `1024·(t / 32) + r`, column `512·(t % 8) + l`. -/
theorem blk_comb (c : Dev nD) (t : Fin cfg0.N) (r : Fin 1024) (l : Fin 512) (R : Fin 8192) (K : Fin 4096)
    (hR : R.val = 1024 * (t.val / 32) + r.val) (hK : K.val = 512 * (t.val % 8) + l.val) :
    (iblk m c 0 t : Vec Ideal S1024x512 .bf16) (ix2 r l) = combOf m c (ix2 R K) := by
  obtain ⟨e0, e1⟩ := at_comb t
  show (V m c main_v1 : S8192x4096.Idx → EReal) (((cfg0.win 0).blk t).view.emb (ix2 r l)) = _
  rw [found_comb]
  refine congrArg (combOf m c) (funext fun a => Fin.ext ?_)
  match a with
  | ⟨0, _⟩ => show win0_0.index t (0 : Fin 2) * 1024 + 1 * r.val = R.val; omega
  | ⟨1, _⟩ => show win0_0.index t (1 : Fin 2) * 512 + 1 * l.val = K.val; omega

/-- Gate 0's weight block at point `t`, entry (u, l): unit `512·(t / 8 % 4) + u`, feature `512·(t % 8) + l`. -/
theorem blk_w0 (c : Dev nD) (t : Fin cfg0.N) (u : Fin 512) (l : Fin 512) (U : Fin 2048) (K : Fin 4096)
    (hU : U.val = 512 * (t.val / 8 % 4) + u.val) (hK : K.val = 512 * (t.val % 8) + l.val) :
    (iblk m c 1 t : Vec Ideal S512x512 .bf16) (ix2 u l) = (m ((c : Thread nD τ).loc main_arg3)) (ix2 U K) := by
  obtain ⟨e10, e11, e20, e21, e30, e31, e40, e41⟩ := at_w t
  show (V m c main_v2 : S2048x4096.Idx → EReal) (((cfg0.win 1).blk t).view.emb (ix2 u l)) = _
  rw [found_w0]
  refine congrArg (m ((c : Thread nD τ).loc main_arg3)) (funext fun a => Fin.ext ?_)
  match a with
  | ⟨0, _⟩ => show win0_1.index t (0 : Fin 2) * 512 + 1 * u.val = U.val; omega
  | ⟨1, _⟩ => show win0_1.index t (1 : Fin 2) * 512 + 1 * l.val = K.val; omega

/-- Gate 0's bias block at point `t`, entry `u` of its one row: the bias of unit `512·(t / 8 % 4) + u`. -/
theorem blk_b0 (c : Dev nD) (t : Fin cfg0.N) (u : Fin 512) (U : Fin 2048) (hU : U.val = 512 * (t.val / 8 % 4) + u.val) :
    (iblk m c 5 t : Vec Ideal S1x512 .f32) (ix2 (0 : Fin 1) u) = (m ((c : Thread nD τ).loc main_arg4)) (ix1 U) := by
  obtain ⟨e50, e51, e60, e61, e70, e71, e80, e81⟩ := at_b t
  show (V m c main_v6 : S1x2048.Idx → EReal) (((cfg0.win 5).blk t).view.emb (ix2 (0 : Fin 1) u)) = _
  rw [found_b0, ← bias_row (m ((c : Thread nD τ).loc main_arg4)) (0 : Fin 1) U]
  refine congrArg (shapeCast S1x2048 (m ((c : Thread nD τ).loc main_arg4)) shapeCasts_S2048_S1x2048) (funext fun a => Fin.ext ?_)
  match a with
  | ⟨0, _⟩ => show win0_5.index t (0 : Fin 2) * 1 + 1 * 0 = 0; omega
  | ⟨1, _⟩ => show win0_5.index t (1 : Fin 2) * 512 + 1 * u.val = U.val; omega

/-- Gate 1's weight block at point `t`, entry (u, l): unit `512·(t / 8 % 4) + u`, feature `512·(t % 8) + l`. -/
theorem blk_w1 (c : Dev nD) (t : Fin cfg0.N) (u : Fin 512) (l : Fin 512) (U : Fin 2048) (K : Fin 4096)
    (hU : U.val = 512 * (t.val / 8 % 4) + u.val) (hK : K.val = 512 * (t.val % 8) + l.val) :
    (iblk m c 2 t : Vec Ideal S512x512 .bf16) (ix2 u l) = (m ((c : Thread nD τ).loc main_arg5)) (ix2 U K) := by
  obtain ⟨e10, e11, e20, e21, e30, e31, e40, e41⟩ := at_w t
  show (V m c main_v3 : S2048x4096.Idx → EReal) (((cfg0.win 2).blk t).view.emb (ix2 u l)) = _
  rw [found_w1]
  refine congrArg (m ((c : Thread nD τ).loc main_arg5)) (funext fun a => Fin.ext ?_)
  match a with
  | ⟨0, _⟩ => show win0_2.index t (0 : Fin 2) * 512 + 1 * u.val = U.val; omega
  | ⟨1, _⟩ => show win0_2.index t (1 : Fin 2) * 512 + 1 * l.val = K.val; omega

/-- Gate 1's bias block at point `t`, entry `u` of its one row: the bias of unit `512·(t / 8 % 4) + u`. -/
theorem blk_b1 (c : Dev nD) (t : Fin cfg0.N) (u : Fin 512) (U : Fin 2048) (hU : U.val = 512 * (t.val / 8 % 4) + u.val) :
    (iblk m c 6 t : Vec Ideal S1x512 .f32) (ix2 (0 : Fin 1) u) = (m ((c : Thread nD τ).loc main_arg6)) (ix1 U) := by
  obtain ⟨e50, e51, e60, e61, e70, e71, e80, e81⟩ := at_b t
  show (V m c main_v7 : S1x2048.Idx → EReal) (((cfg0.win 6).blk t).view.emb (ix2 (0 : Fin 1) u)) = _
  rw [found_b1, ← bias_row (m ((c : Thread nD τ).loc main_arg6)) (0 : Fin 1) U]
  refine congrArg (shapeCast S1x2048 (m ((c : Thread nD τ).loc main_arg6)) shapeCasts_S2048_S1x2048) (funext fun a => Fin.ext ?_)
  match a with
  | ⟨0, _⟩ => show win0_6.index t (0 : Fin 2) * 1 + 1 * 0 = 0; omega
  | ⟨1, _⟩ => show win0_6.index t (1 : Fin 2) * 512 + 1 * u.val = U.val; omega

/-- Gate 2's weight block at point `t`, entry (u, l): unit `512·(t / 8 % 4) + u`, feature `512·(t % 8) + l`. -/
theorem blk_w2 (c : Dev nD) (t : Fin cfg0.N) (u : Fin 512) (l : Fin 512) (U : Fin 2048) (K : Fin 4096)
    (hU : U.val = 512 * (t.val / 8 % 4) + u.val) (hK : K.val = 512 * (t.val % 8) + l.val) :
    (iblk m c 3 t : Vec Ideal S512x512 .bf16) (ix2 u l) = (m ((c : Thread nD τ).loc main_arg7)) (ix2 U K) := by
  obtain ⟨e10, e11, e20, e21, e30, e31, e40, e41⟩ := at_w t
  show (V m c main_v4 : S2048x4096.Idx → EReal) (((cfg0.win 3).blk t).view.emb (ix2 u l)) = _
  rw [found_w2]
  refine congrArg (m ((c : Thread nD τ).loc main_arg7)) (funext fun a => Fin.ext ?_)
  match a with
  | ⟨0, _⟩ => show win0_3.index t (0 : Fin 2) * 512 + 1 * u.val = U.val; omega
  | ⟨1, _⟩ => show win0_3.index t (1 : Fin 2) * 512 + 1 * l.val = K.val; omega

/-- Gate 2's bias block at point `t`, entry `u` of its one row: the bias of unit `512·(t / 8 % 4) + u`. -/
theorem blk_b2 (c : Dev nD) (t : Fin cfg0.N) (u : Fin 512) (U : Fin 2048) (hU : U.val = 512 * (t.val / 8 % 4) + u.val) :
    (iblk m c 7 t : Vec Ideal S1x512 .f32) (ix2 (0 : Fin 1) u) = (m ((c : Thread nD τ).loc main_arg8)) (ix1 U) := by
  obtain ⟨e50, e51, e60, e61, e70, e71, e80, e81⟩ := at_b t
  show (V m c main_v8 : S1x2048.Idx → EReal) (((cfg0.win 7).blk t).view.emb (ix2 (0 : Fin 1) u)) = _
  rw [found_b2, ← bias_row (m ((c : Thread nD τ).loc main_arg8)) (0 : Fin 1) U]
  refine congrArg (shapeCast S1x2048 (m ((c : Thread nD τ).loc main_arg8)) shapeCasts_S2048_S1x2048) (funext fun a => Fin.ext ?_)
  match a with
  | ⟨0, _⟩ => show win0_7.index t (0 : Fin 2) * 1 + 1 * 0 = 0; omega
  | ⟨1, _⟩ => show win0_7.index t (1 : Fin 2) * 512 + 1 * u.val = U.val; omega

/-- Gate 3's weight block at point `t`, entry (u, l): unit `512·(t / 8 % 4) + u`, feature `512·(t % 8) + l`. -/
theorem blk_w3 (c : Dev nD) (t : Fin cfg0.N) (u : Fin 512) (l : Fin 512) (U : Fin 2048) (K : Fin 4096)
    (hU : U.val = 512 * (t.val / 8 % 4) + u.val) (hK : K.val = 512 * (t.val % 8) + l.val) :
    (iblk m c 4 t : Vec Ideal S512x512 .bf16) (ix2 u l) = (m ((c : Thread nD τ).loc main_arg9)) (ix2 U K) := by
  obtain ⟨e10, e11, e20, e21, e30, e31, e40, e41⟩ := at_w t
  show (V m c main_v5 : S2048x4096.Idx → EReal) (((cfg0.win 4).blk t).view.emb (ix2 u l)) = _
  rw [found_w3]
  refine congrArg (m ((c : Thread nD τ).loc main_arg9)) (funext fun a => Fin.ext ?_)
  match a with
  | ⟨0, _⟩ => show win0_4.index t (0 : Fin 2) * 512 + 1 * u.val = U.val; omega
  | ⟨1, _⟩ => show win0_4.index t (1 : Fin 2) * 512 + 1 * l.val = K.val; omega

/-- Gate 3's bias block at point `t`, entry `u` of its one row: the bias of unit `512·(t / 8 % 4) + u`. -/
theorem blk_b3 (c : Dev nD) (t : Fin cfg0.N) (u : Fin 512) (U : Fin 2048) (hU : U.val = 512 * (t.val / 8 % 4) + u.val) :
    (iblk m c 8 t : Vec Ideal S1x512 .f32) (ix2 (0 : Fin 1) u) = (m ((c : Thread nD τ).loc main_arg10)) (ix1 U) := by
  obtain ⟨e50, e51, e60, e61, e70, e71, e80, e81⟩ := at_b t
  show (V m c main_v9 : S1x2048.Idx → EReal) (((cfg0.win 8).blk t).view.emb (ix2 (0 : Fin 1) u)) = _
  rw [found_b3, ← bias_row (m ((c : Thread nD τ).loc main_arg10)) (0 : Fin 1) U]
  refine congrArg (shapeCast S1x2048 (m ((c : Thread nD τ).loc main_arg10)) shapeCasts_S2048_S1x2048) (funext fun a => Fin.ext ?_)
  match a with
  | ⟨0, _⟩ => show win0_8.index t (0 : Fin 2) * 1 + 1 * 0 = 0; omega
  | ⟨1, _⟩ => show win0_8.index t (1 : Fin 2) * 512 + 1 * u.val = U.val; omega

/-- The old cell state's block at point `t`, entry (r, u): row `1024·(t / 32) + r`, unit `512·(t / 8 % 4) + u`. -/
theorem blk_cp (c : Dev nD) (t : Fin cfg0.N) (r : Fin 1024) (u : Fin 512) (R : Fin 8192) (U : Fin 2048)
    (hR : R.val = 1024 * (t.val / 32) + r.val) (hU : U.val = 512 * (t.val / 8 % 4) + u.val) :
    (iblk m c 9 t : Vec Ideal S1024x512 .f32) (ix2 r u) = (m ((c : Thread nD τ).loc main_arg2)) (ix2 R U) := by
  obtain ⟨e90, e91, _, _, _, _⟩ := at_act t
  show V m c main_arg2 (((cfg0.win 9).blk t).view.emb (ix2 r u)) = _
  rw [V_main_arg2]
  refine congrArg (m ((c : Thread nD τ).loc main_arg2)) (funext fun a => Fin.ext ?_)
  match a with
  | ⟨0, _⟩ => show win0_9.index t (0 : Fin 2) * 1024 + 1 * r.val = R.val; omega
  | ⟨1, _⟩ => show win0_9.index t (1 : Fin 2) * 512 + 1 * u.val = U.val; omega

end Cert.KernelIdeal.Lstm

end
-- ==== Proof.KAccum.lean ====
/-
  The four accumulators after the last step of a sweep hold the four gates' pre-activations.

  Along a sweep (the eight consecutive points `8q … 8q + 7`, which share their rows and hidden units) an accumulator is set
  at the first point to the bias entry of its column plus the first chunk's partial inner product, and every later point
  adds its own chunk's. So after the last point it holds bias + chunk 0 + … + chunk 7, added in that order; the chunks
  are the eight consecutive stretches of 512 of the 4096 features, so this is the whole inner product plus the bias, by
  regrouping alone (`acc_eq_lin`).
-/
import proofs.«127543_j81930796139238_2_alg».proof.Proof.Gen.KernelIdeal.Value
import proofs.«127543_j81930796139238_2_alg».proof.Proof.KPieces
import proofs.«127543_j81930796139238_2_alg».proof.Proof.KPayload
import proofs.«127543_j81930796139238_2_alg».proof.Proof.KBlocks
import Idealize.ShloMosaic.Lib.Pipeline.Value

noncomputable section

open Idealize.ShloMosaic Idealize.ShloMosaic.TcCoe Idealize.SL.Sem Idealize.ShloMosaic.ValueIdx

namespace Cert.KernelIdeal.Lstm

open Cert.KernelIdeal Cert.KernelIdeal.Gen Cert.KernelIdeal.Value Cert.Lstm

variable (m : (ℓ : Loc nD τ sig) → Buf (Elt Ideal) ℓ)

/-- Point `n`'s addend to accumulator 0 at an entry: its chunk's partial inner product (`0` past the grid). -/
def addend0 (c : Dev nD) (n : ℕ) (y : S1024x512.Idx) : EReal :=
  if h : n < cfg0.N then chunkSum (iblk m c 0 ⟨n, h⟩) (iblk m c 1 ⟨n, h⟩) y else 0

/-- What a sweep starting at point `b` sets accumulator 0 to before adding anything: the bias block's entry in that column. -/
def start0 (c : Dev nD) (b : ℕ) (y : S1024x512.Idx) : EReal :=
  if h : b < cfg0.N then biasEntry (iblk m c 5 ⟨b, h⟩) y else 0

/-- The first step of a sweep leaves bias plus the first chunk's sum. -/
theorem first_step0 (c : Dev nD) (n : ℕ) (hb : n < cfg0.N) (h0 : n % 8 = 0) (acc : Vec Ideal S1024x512 .f32) (r : Fin 1024) (u : Fin 512) :
    scAt0_0 m c n hb acc (ix2 r u) = start0 m c n (ix2 r u) + addend0 m c n (ix2 r u) := by
  have h1 : ¬n % 8 = 7 := by omega
  unfold scAt0_0
  rw [dif_pos h0, dif_neg h1]
  refine (congrFun (first_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))) (ix2 r u)).trans ?_
  refine (upd_0 _ (iblk m c 0 (⟨n, hb⟩ : Fin cfg0.N)) (iblk m c 1 (⟨n, hb⟩ : Fin cfg0.N)) r u).trans ?_
  refine congrArg₂ (· + ·) ?_ ?_
  · refine (bias_0 (iblk m c 5 (⟨n, hb⟩ : Fin cfg0.N)) r u).trans ?_
    unfold start0
    rw [dif_pos hb]
  · unfold addend0
    rw [dif_pos hb]

/-- Every later step of the sweep adds its chunk's sum to what the step before left. -/
theorem later_step0 (c : Dev nD) (n : ℕ) (hb : n < cfg0.N) (h0 : ¬n % 8 = 0) (acc : Vec Ideal S1024x512 .f32) (r : Fin 1024) (u : Fin 512) :
    scAt0_0 m c n hb acc (ix2 r u) = acc (ix2 r u) + addend0 m c n (ix2 r u) := by
  have hadd : addend0 m c n (ix2 r u) = chunkSum (iblk m c 0 (⟨n, hb⟩ : Fin cfg0.N)) (iblk m c 1 (⟨n, hb⟩ : Fin cfg0.N)) (ix2 r u) := by
    unfold addend0
    rw [dif_pos hb]
  rw [hadd]
  unfold scAt0_0
  rw [dif_neg h0]
  by_cases h1 : n % 8 = 7
  · rw [dif_pos h1]
    refine (congrFun (last_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2) (ix2 r u)).trans ?_
    exact upd_0 acc (iblk m c 0 (⟨n, hb⟩ : Fin cfg0.N)) (iblk m c 1 (⟨n, hb⟩ : Fin cfg0.N)) r u
  · rw [dif_neg h1]
    refine (congrFun (mid_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2) (ix2 r u)).trans ?_
    exact upd_0 acc (iblk m c 0 (⟨n, hb⟩ : Fin cfg0.N)) (iblk m c 1 (⟨n, hb⟩ : Fin cfg0.N)) r u

/-- After the last step of a sweep accumulator 0 holds, at entry (r, u), gate 0's pre-activation for row
    `1024·(t / 32) + r` and hidden unit `512·(t / 8 % 4) + u`: the bias, then the eight chunks' sums in order. -/
theorem swept0 (c : Dev nD) (t : Fin cfg0.N) (h7 : t.val % 8 = 7) (r : Fin 1024) (u : Fin 512) (R : Fin 8192) (U : Fin 2048)
    (hR : R.val = 1024 * (t.val / 32) + r.val) (hU : U.val = 512 * (t.val / 8 % 4) + u.val) :
    (outsAt0 m c t.val t.isLt).2.2.1 (ix2 r u) = lin (combOf m c) (m ((c : Thread nD τ).loc main_arg3)) (m ((c : Thread nD τ).loc main_arg4)) R U := by
  have hN : cfg0.N = 256 := N_0
  have ht : t.val < 256 := lt_of_lt_of_eq t.isLt hN
  rw [soutsAt0_0_eq m c t]
  have key := Pipeline.accAt_add_apply (β := EReal) (fun n h => scAt0_0 m c n h (VS0_0.read (Elt Ideal) VS0_0.junk)) (scAt0_0 m c)
    (start0 m c (8 * (t.val / 8))) (addend0 m c) (8 * (t.val / 8)) 7
    (fun h y => by rw [eq_ix2 y]; exact first_step0 m c _ h (by omega) _ (y 0) (y 1))
    (fun n h acc y hlt hle => by rw [eq_ix2 y]; exact later_step0 m c n h (by omega) acc (y 0) (y 1))
    (t.val % 8) (by omega) (by omega) (ix2 r u)
  refine key.trans ?_
  rw [h7]
  have hb : 8 * (t.val / 8) < cfg0.N := by omega
  refine acc_eq_lin (combOf m c) (m ((c : Thread nD τ).loc main_arg3)) (m ((c : Thread nD τ).loc main_arg4)) R U _ ?_ (fun s => addend0 m c (8 * (t.val / 8) + s) (ix2 r u)) ?_
  · unfold start0
    rw [dif_pos hb]
    exact blk_b0 m c ⟨8 * (t.val / 8), hb⟩ u U (by show U.val = 512 * (8 * (t.val / 8) / 8 % 4) + u.val; omega)
  · intro s hs
    have hs' : 8 * (t.val / 8) + s < cfg0.N := by omega
    unfold addend0
    rw [dif_pos hs', ← Fin.sum_univ_eq_sum_range (fun l => term (combOf m c) (m ((c : Thread nD τ).loc main_arg3)) R U (512 * s + l)) 512]
    refine Finset.sum_congr rfl fun l _ => ?_
    have hk : 512 * s + l.val < 4096 := by have := l.isLt; omega
    rw [term_of_lt _ _ _ _ _ hk]
    refine congrArg₂ (· * ·) ?_ ?_
    · exact blk_comb m c ⟨8 * (t.val / 8) + s, hs'⟩ r l R ⟨512 * s + l.val, hk⟩
        (by show R.val = 1024 * ((8 * (t.val / 8) + s) / 32) + r.val; omega)
        (by show 512 * s + l.val = 512 * ((8 * (t.val / 8) + s) % 8) + l.val; omega)
    · exact blk_w0 m c ⟨8 * (t.val / 8) + s, hs'⟩ u l U ⟨512 * s + l.val, hk⟩
        (by show U.val = 512 * ((8 * (t.val / 8) + s) / 8 % 4) + u.val; omega)
        (by show 512 * s + l.val = 512 * ((8 * (t.val / 8) + s) % 8) + l.val; omega)

/-- Point `n`'s addend to accumulator 1 at an entry: its chunk's partial inner product (`0` past the grid). -/
def addend1 (c : Dev nD) (n : ℕ) (y : S1024x512.Idx) : EReal :=
  if h : n < cfg0.N then chunkSum (iblk m c 0 ⟨n, h⟩) (iblk m c 2 ⟨n, h⟩) y else 0

/-- What a sweep starting at point `b` sets accumulator 1 to before adding anything: the bias block's entry in that column. -/
def start1 (c : Dev nD) (b : ℕ) (y : S1024x512.Idx) : EReal :=
  if h : b < cfg0.N then biasEntry (iblk m c 6 ⟨b, h⟩) y else 0

/-- The first step of a sweep leaves bias plus the first chunk's sum. -/
theorem first_step1 (c : Dev nD) (n : ℕ) (hb : n < cfg0.N) (h0 : n % 8 = 0) (acc : Vec Ideal S1024x512 .f32) (r : Fin 1024) (u : Fin 512) :
    scAt0_1 m c n hb acc (ix2 r u) = start1 m c n (ix2 r u) + addend1 m c n (ix2 r u) := by
  have h1 : ¬n % 8 = 7 := by omega
  unfold scAt0_1
  rw [dif_pos h0, dif_neg h1]
  refine (congrFun (first_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))) (ix2 r u)).trans ?_
  refine (upd_1 _ (iblk m c 0 (⟨n, hb⟩ : Fin cfg0.N)) (iblk m c 2 (⟨n, hb⟩ : Fin cfg0.N)) r u).trans ?_
  refine congrArg₂ (· + ·) ?_ ?_
  · refine (bias_1 (iblk m c 6 (⟨n, hb⟩ : Fin cfg0.N)) r u).trans ?_
    unfold start1
    rw [dif_pos hb]
  · unfold addend1
    rw [dif_pos hb]

/-- Every later step of the sweep adds its chunk's sum to what the step before left. -/
theorem later_step1 (c : Dev nD) (n : ℕ) (hb : n < cfg0.N) (h0 : ¬n % 8 = 0) (acc : Vec Ideal S1024x512 .f32) (r : Fin 1024) (u : Fin 512) :
    scAt0_1 m c n hb acc (ix2 r u) = acc (ix2 r u) + addend1 m c n (ix2 r u) := by
  have hadd : addend1 m c n (ix2 r u) = chunkSum (iblk m c 0 (⟨n, hb⟩ : Fin cfg0.N)) (iblk m c 2 (⟨n, hb⟩ : Fin cfg0.N)) (ix2 r u) := by
    unfold addend1
    rw [dif_pos hb]
  rw [hadd]
  unfold scAt0_1
  rw [dif_neg h0]
  by_cases h1 : n % 8 = 7
  · rw [dif_pos h1]
    refine (congrFun (last_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2) (ix2 r u)).trans ?_
    exact upd_1 acc (iblk m c 0 (⟨n, hb⟩ : Fin cfg0.N)) (iblk m c 2 (⟨n, hb⟩ : Fin cfg0.N)) r u
  · rw [dif_neg h1]
    refine (congrFun (mid_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2) (ix2 r u)).trans ?_
    exact upd_1 acc (iblk m c 0 (⟨n, hb⟩ : Fin cfg0.N)) (iblk m c 2 (⟨n, hb⟩ : Fin cfg0.N)) r u

/-- After the last step of a sweep accumulator 1 holds, at entry (r, u), gate 1's pre-activation for row
    `1024·(t / 32) + r` and hidden unit `512·(t / 8 % 4) + u`: the bias, then the eight chunks' sums in order. -/
theorem swept1 (c : Dev nD) (t : Fin cfg0.N) (h7 : t.val % 8 = 7) (r : Fin 1024) (u : Fin 512) (R : Fin 8192) (U : Fin 2048)
    (hR : R.val = 1024 * (t.val / 32) + r.val) (hU : U.val = 512 * (t.val / 8 % 4) + u.val) :
    (outsAt0 m c t.val t.isLt).2.2.2.1 (ix2 r u) = lin (combOf m c) (m ((c : Thread nD τ).loc main_arg5)) (m ((c : Thread nD τ).loc main_arg6)) R U := by
  have hN : cfg0.N = 256 := N_0
  have ht : t.val < 256 := lt_of_lt_of_eq t.isLt hN
  rw [soutsAt0_1_eq m c t]
  have key := Pipeline.accAt_add_apply (β := EReal) (fun n h => scAt0_1 m c n h (VS0_1.read (Elt Ideal) VS0_1.junk)) (scAt0_1 m c)
    (start1 m c (8 * (t.val / 8))) (addend1 m c) (8 * (t.val / 8)) 7
    (fun h y => by rw [eq_ix2 y]; exact first_step1 m c _ h (by omega) _ (y 0) (y 1))
    (fun n h acc y hlt hle => by rw [eq_ix2 y]; exact later_step1 m c n h (by omega) acc (y 0) (y 1))
    (t.val % 8) (by omega) (by omega) (ix2 r u)
  refine key.trans ?_
  rw [h7]
  have hb : 8 * (t.val / 8) < cfg0.N := by omega
  refine acc_eq_lin (combOf m c) (m ((c : Thread nD τ).loc main_arg5)) (m ((c : Thread nD τ).loc main_arg6)) R U _ ?_ (fun s => addend1 m c (8 * (t.val / 8) + s) (ix2 r u)) ?_
  · unfold start1
    rw [dif_pos hb]
    exact blk_b1 m c ⟨8 * (t.val / 8), hb⟩ u U (by show U.val = 512 * (8 * (t.val / 8) / 8 % 4) + u.val; omega)
  · intro s hs
    have hs' : 8 * (t.val / 8) + s < cfg0.N := by omega
    unfold addend1
    rw [dif_pos hs', ← Fin.sum_univ_eq_sum_range (fun l => term (combOf m c) (m ((c : Thread nD τ).loc main_arg5)) R U (512 * s + l)) 512]
    refine Finset.sum_congr rfl fun l _ => ?_
    have hk : 512 * s + l.val < 4096 := by have := l.isLt; omega
    rw [term_of_lt _ _ _ _ _ hk]
    refine congrArg₂ (· * ·) ?_ ?_
    · exact blk_comb m c ⟨8 * (t.val / 8) + s, hs'⟩ r l R ⟨512 * s + l.val, hk⟩
        (by show R.val = 1024 * ((8 * (t.val / 8) + s) / 32) + r.val; omega)
        (by show 512 * s + l.val = 512 * ((8 * (t.val / 8) + s) % 8) + l.val; omega)
    · exact blk_w1 m c ⟨8 * (t.val / 8) + s, hs'⟩ u l U ⟨512 * s + l.val, hk⟩
        (by show U.val = 512 * ((8 * (t.val / 8) + s) / 8 % 4) + u.val; omega)
        (by show 512 * s + l.val = 512 * ((8 * (t.val / 8) + s) % 8) + l.val; omega)

/-- Point `n`'s addend to accumulator 2 at an entry: its chunk's partial inner product (`0` past the grid). -/
def addend2 (c : Dev nD) (n : ℕ) (y : S1024x512.Idx) : EReal :=
  if h : n < cfg0.N then chunkSum (iblk m c 0 ⟨n, h⟩) (iblk m c 3 ⟨n, h⟩) y else 0

/-- What a sweep starting at point `b` sets accumulator 2 to before adding anything: the bias block's entry in that column. -/
def start2 (c : Dev nD) (b : ℕ) (y : S1024x512.Idx) : EReal :=
  if h : b < cfg0.N then biasEntry (iblk m c 7 ⟨b, h⟩) y else 0

/-- The first step of a sweep leaves bias plus the first chunk's sum. -/
theorem first_step2 (c : Dev nD) (n : ℕ) (hb : n < cfg0.N) (h0 : n % 8 = 0) (acc : Vec Ideal S1024x512 .f32) (r : Fin 1024) (u : Fin 512) :
    scAt0_2 m c n hb acc (ix2 r u) = start2 m c n (ix2 r u) + addend2 m c n (ix2 r u) := by
  have h1 : ¬n % 8 = 7 := by omega
  unfold scAt0_2
  rw [dif_pos h0, dif_neg h1]
  refine (congrFun (first_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))) (ix2 r u)).trans ?_
  refine (upd_2 _ (iblk m c 0 (⟨n, hb⟩ : Fin cfg0.N)) (iblk m c 3 (⟨n, hb⟩ : Fin cfg0.N)) r u).trans ?_
  refine congrArg₂ (· + ·) ?_ ?_
  · refine (bias_2 (iblk m c 7 (⟨n, hb⟩ : Fin cfg0.N)) r u).trans ?_
    unfold start2
    rw [dif_pos hb]
  · unfold addend2
    rw [dif_pos hb]

/-- Every later step of the sweep adds its chunk's sum to what the step before left. -/
theorem later_step2 (c : Dev nD) (n : ℕ) (hb : n < cfg0.N) (h0 : ¬n % 8 = 0) (acc : Vec Ideal S1024x512 .f32) (r : Fin 1024) (u : Fin 512) :
    scAt0_2 m c n hb acc (ix2 r u) = acc (ix2 r u) + addend2 m c n (ix2 r u) := by
  have hadd : addend2 m c n (ix2 r u) = chunkSum (iblk m c 0 (⟨n, hb⟩ : Fin cfg0.N)) (iblk m c 3 (⟨n, hb⟩ : Fin cfg0.N)) (ix2 r u) := by
    unfold addend2
    rw [dif_pos hb]
  rw [hadd]
  unfold scAt0_2
  rw [dif_neg h0]
  by_cases h1 : n % 8 = 7
  · rw [dif_pos h1]
    refine (congrFun (last_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2) (ix2 r u)).trans ?_
    exact upd_2 acc (iblk m c 0 (⟨n, hb⟩ : Fin cfg0.N)) (iblk m c 3 (⟨n, hb⟩ : Fin cfg0.N)) r u
  · rw [dif_neg h1]
    refine (congrFun (mid_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2) (ix2 r u)).trans ?_
    exact upd_2 acc (iblk m c 0 (⟨n, hb⟩ : Fin cfg0.N)) (iblk m c 3 (⟨n, hb⟩ : Fin cfg0.N)) r u

/-- After the last step of a sweep accumulator 2 holds, at entry (r, u), gate 2's pre-activation for row
    `1024·(t / 32) + r` and hidden unit `512·(t / 8 % 4) + u`: the bias, then the eight chunks' sums in order. -/
theorem swept2 (c : Dev nD) (t : Fin cfg0.N) (h7 : t.val % 8 = 7) (r : Fin 1024) (u : Fin 512) (R : Fin 8192) (U : Fin 2048)
    (hR : R.val = 1024 * (t.val / 32) + r.val) (hU : U.val = 512 * (t.val / 8 % 4) + u.val) :
    (outsAt0 m c t.val t.isLt).2.2.2.2.1 (ix2 r u) = lin (combOf m c) (m ((c : Thread nD τ).loc main_arg7)) (m ((c : Thread nD τ).loc main_arg8)) R U := by
  have hN : cfg0.N = 256 := N_0
  have ht : t.val < 256 := lt_of_lt_of_eq t.isLt hN
  rw [soutsAt0_2_eq m c t]
  have key := Pipeline.accAt_add_apply (β := EReal) (fun n h => scAt0_2 m c n h (VS0_2.read (Elt Ideal) VS0_2.junk)) (scAt0_2 m c)
    (start2 m c (8 * (t.val / 8))) (addend2 m c) (8 * (t.val / 8)) 7
    (fun h y => by rw [eq_ix2 y]; exact first_step2 m c _ h (by omega) _ (y 0) (y 1))
    (fun n h acc y hlt hle => by rw [eq_ix2 y]; exact later_step2 m c n h (by omega) acc (y 0) (y 1))
    (t.val % 8) (by omega) (by omega) (ix2 r u)
  refine key.trans ?_
  rw [h7]
  have hb : 8 * (t.val / 8) < cfg0.N := by omega
  refine acc_eq_lin (combOf m c) (m ((c : Thread nD τ).loc main_arg7)) (m ((c : Thread nD τ).loc main_arg8)) R U _ ?_ (fun s => addend2 m c (8 * (t.val / 8) + s) (ix2 r u)) ?_
  · unfold start2
    rw [dif_pos hb]
    exact blk_b2 m c ⟨8 * (t.val / 8), hb⟩ u U (by show U.val = 512 * (8 * (t.val / 8) / 8 % 4) + u.val; omega)
  · intro s hs
    have hs' : 8 * (t.val / 8) + s < cfg0.N := by omega
    unfold addend2
    rw [dif_pos hs', ← Fin.sum_univ_eq_sum_range (fun l => term (combOf m c) (m ((c : Thread nD τ).loc main_arg7)) R U (512 * s + l)) 512]
    refine Finset.sum_congr rfl fun l _ => ?_
    have hk : 512 * s + l.val < 4096 := by have := l.isLt; omega
    rw [term_of_lt _ _ _ _ _ hk]
    refine congrArg₂ (· * ·) ?_ ?_
    · exact blk_comb m c ⟨8 * (t.val / 8) + s, hs'⟩ r l R ⟨512 * s + l.val, hk⟩
        (by show R.val = 1024 * ((8 * (t.val / 8) + s) / 32) + r.val; omega)
        (by show 512 * s + l.val = 512 * ((8 * (t.val / 8) + s) % 8) + l.val; omega)
    · exact blk_w2 m c ⟨8 * (t.val / 8) + s, hs'⟩ u l U ⟨512 * s + l.val, hk⟩
        (by show U.val = 512 * ((8 * (t.val / 8) + s) / 8 % 4) + u.val; omega)
        (by show 512 * s + l.val = 512 * ((8 * (t.val / 8) + s) % 8) + l.val; omega)

/-- Point `n`'s addend to accumulator 3 at an entry: its chunk's partial inner product (`0` past the grid). -/
def addend3 (c : Dev nD) (n : ℕ) (y : S1024x512.Idx) : EReal :=
  if h : n < cfg0.N then chunkSum (iblk m c 0 ⟨n, h⟩) (iblk m c 4 ⟨n, h⟩) y else 0

/-- What a sweep starting at point `b` sets accumulator 3 to before adding anything: the bias block's entry in that column. -/
def start3 (c : Dev nD) (b : ℕ) (y : S1024x512.Idx) : EReal :=
  if h : b < cfg0.N then biasEntry (iblk m c 8 ⟨b, h⟩) y else 0

/-- The first step of a sweep leaves bias plus the first chunk's sum. -/
theorem first_step3 (c : Dev nD) (n : ℕ) (hb : n < cfg0.N) (h0 : n % 8 = 0) (acc : Vec Ideal S1024x512 .f32) (r : Fin 1024) (u : Fin 512) :
    scAt0_3 m c n hb acc (ix2 r u) = start3 m c n (ix2 r u) + addend3 m c n (ix2 r u) := by
  have h1 : ¬n % 8 = 7 := by omega
  unfold scAt0_3
  rw [dif_pos h0, dif_neg h1]
  refine (congrFun (first_3 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N))) (ix2 r u)).trans ?_
  refine (upd_3 _ (iblk m c 0 (⟨n, hb⟩ : Fin cfg0.N)) (iblk m c 4 (⟨n, hb⟩ : Fin cfg0.N)) r u).trans ?_
  refine congrArg₂ (· + ·) ?_ ?_
  · refine (bias_3 (iblk m c 8 (⟨n, hb⟩ : Fin cfg0.N)) r u).trans ?_
    unfold start3
    rw [dif_pos hb]
  · unfold addend3
    rw [dif_pos hb]

/-- Every later step of the sweep adds its chunk's sum to what the step before left. -/
theorem later_step3 (c : Dev nD) (n : ℕ) (hb : n < cfg0.N) (h0 : ¬n % 8 = 0) (acc : Vec Ideal S1024x512 .f32) (r : Fin 1024) (u : Fin 512) :
    scAt0_3 m c n hb acc (ix2 r u) = acc (ix2 r u) + addend3 m c n (ix2 r u) := by
  have hadd : addend3 m c n (ix2 r u) = chunkSum (iblk m c 0 (⟨n, hb⟩ : Fin cfg0.N)) (iblk m c 4 (⟨n, hb⟩ : Fin cfg0.N)) (ix2 r u) := by
    unfold addend3
    rw [dif_pos hb]
  rw [hadd]
  unfold scAt0_3
  rw [dif_neg h0]
  by_cases h1 : n % 8 = 7
  · rw [dif_pos h1]
    refine (congrFun (last_3 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc) (ix2 r u)).trans ?_
    exact upd_3 acc (iblk m c 0 (⟨n, hb⟩ : Fin cfg0.N)) (iblk m c 4 (⟨n, hb⟩ : Fin cfg0.N)) r u
  · rw [dif_neg h1]
    refine (congrFun (mid_3 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc) (ix2 r u)).trans ?_
    exact upd_3 acc (iblk m c 0 (⟨n, hb⟩ : Fin cfg0.N)) (iblk m c 4 (⟨n, hb⟩ : Fin cfg0.N)) r u

/-- After the last step of a sweep accumulator 3 holds, at entry (r, u), gate 3's pre-activation for row
    `1024·(t / 32) + r` and hidden unit `512·(t / 8 % 4) + u`: the bias, then the eight chunks' sums in order. -/
theorem swept3 (c : Dev nD) (t : Fin cfg0.N) (h7 : t.val % 8 = 7) (r : Fin 1024) (u : Fin 512) (R : Fin 8192) (U : Fin 2048)
    (hR : R.val = 1024 * (t.val / 32) + r.val) (hU : U.val = 512 * (t.val / 8 % 4) + u.val) :
    (outsAt0 m c t.val t.isLt).2.2.2.2.2 (ix2 r u) = lin (combOf m c) (m ((c : Thread nD τ).loc main_arg9)) (m ((c : Thread nD τ).loc main_arg10)) R U := by
  have hN : cfg0.N = 256 := N_0
  have ht : t.val < 256 := lt_of_lt_of_eq t.isLt hN
  rw [soutsAt0_3_eq m c t]
  have key := Pipeline.accAt_add_apply (β := EReal) (fun n h => scAt0_3 m c n h (VS0_3.read (Elt Ideal) VS0_3.junk)) (scAt0_3 m c)
    (start3 m c (8 * (t.val / 8))) (addend3 m c) (8 * (t.val / 8)) 7
    (fun h y => by rw [eq_ix2 y]; exact first_step3 m c _ h (by omega) _ (y 0) (y 1))
    (fun n h acc y hlt hle => by rw [eq_ix2 y]; exact later_step3 m c n h (by omega) acc (y 0) (y 1))
    (t.val % 8) (by omega) (by omega) (ix2 r u)
  refine key.trans ?_
  rw [h7]
  have hb : 8 * (t.val / 8) < cfg0.N := by omega
  refine acc_eq_lin (combOf m c) (m ((c : Thread nD τ).loc main_arg9)) (m ((c : Thread nD τ).loc main_arg10)) R U _ ?_ (fun s => addend3 m c (8 * (t.val / 8) + s) (ix2 r u)) ?_
  · unfold start3
    rw [dif_pos hb]
    exact blk_b3 m c ⟨8 * (t.val / 8), hb⟩ u U (by show U.val = 512 * (8 * (t.val / 8) / 8 % 4) + u.val; omega)
  · intro s hs
    have hs' : 8 * (t.val / 8) + s < cfg0.N := by omega
    unfold addend3
    rw [dif_pos hs', ← Fin.sum_univ_eq_sum_range (fun l => term (combOf m c) (m ((c : Thread nD τ).loc main_arg9)) R U (512 * s + l)) 512]
    refine Finset.sum_congr rfl fun l _ => ?_
    have hk : 512 * s + l.val < 4096 := by have := l.isLt; omega
    rw [term_of_lt _ _ _ _ _ hk]
    refine congrArg₂ (· * ·) ?_ ?_
    · exact blk_comb m c ⟨8 * (t.val / 8) + s, hs'⟩ r l R ⟨512 * s + l.val, hk⟩
        (by show R.val = 1024 * ((8 * (t.val / 8) + s) / 32) + r.val; omega)
        (by show 512 * s + l.val = 512 * ((8 * (t.val / 8) + s) % 8) + l.val; omega)
    · exact blk_w3 m c ⟨8 * (t.val / 8) + s, hs'⟩ u l U ⟨512 * s + l.val, hk⟩
        (by show U.val = 512 * ((8 * (t.val / 8) + s) / 8 % 4) + u.val; omega)
        (by show 512 * s + l.val = 512 * ((8 * (t.val / 8) + s) % 8) + l.val; omega)

end Cert.KernelIdeal.Lstm

end
-- ==== Proof.KFinal.lean ====
/-
  The two result arrays after the run: the new hidden state and the new cell state of Spec.lean.

  Only the last step of each sweep (`t % 8 = 7`) writes a block back. There the four accumulators hold the four gates'
  pre-activations for the block's rows and hidden units (KAccum.lean), so the block written for the cell state is
  `σ(f)·c_prev + σ(i)·tanh(g)` and the one for the hidden state `σ(o)·tanh` of that, entry by entry: blocks of the two
  whole-array functions. The 8 × 4 written blocks of 1024 × 512 tile the 8192 × 2048 arrays, the block holding row `R`
  and unit `U` being written at point `32·(R / 1024) + 8·(U / 512) + 7`.
-/
import proofs.«127543_j81930796139238_2_alg».proof.Proof.KAccum

noncomputable section

open Idealize.ShloMosaic Idealize.ShloMosaic.TcCoe Idealize.SL.Sem Idealize.ShloMosaic.ValueIdx
open Idealize.ShloMosaic.Pipeline (Dat)

namespace Cert.KernelIdeal.Lstm

open Cert.KernelIdeal Cert.KernelIdeal.Gen Cert.KernelIdeal.Value Cert.Lstm

variable (m : (ℓ : Loc nD τ sig) → Buf (Elt Ideal) ℓ) (ρ : Dev nD → PrngReg)

/-- The new cell state, from the argument arrays. -/
abbrev cellRes (c : Dev nD) : SAct.Idx → EReal :=
  cOut (combOf m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg2))

/-- The new hidden state, from the argument arrays. -/
abbrev hidRes (c : Dev nD) : SAct.Idx → EReal :=
  hOut (combOf m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg2))

/-- The cell-state block a sweep's last step leaves, entry (r, u). -/
theorem cell_block (c : Dev nD) (t : Fin cfg0.N) (h1 : t.val % 8 = 7) (r : Fin 1024) (u : Fin 512) (R : Fin 8192) (U : Fin 2048)
    (hR : R.val = 1024 * (t.val / 32) + r.val) (hU : U.val = 512 * (t.val / 8 % 4) + u.val) :
    (outsAt0 m c t.val t.isLt).2.1 (ix2 r u) = cellRes m c (ix2 R U) := by
  have h0 : ¬t.val % 8 = 0 := by omega
  have q0 := swept0 m c t h1 r u R U hR hU
  have q1 := swept1 m c t h1 r u R U hR hU
  have q2 := swept2 m c t h1 r u R U hR hU
  rw [outsAt0_C m c t h0 h1] at q0 q1 q2 ⊢
  dsimp only at q0 q1 q2 ⊢
  rw [last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2] at q0
  rw [last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2] at q1
  rw [last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2] at q2
  refine (congrFun (last_cell (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 r u)).trans ?_
  refine (cell_at _ _ _ _ _).trans ?_
  rw [q0, q1, q2, blk_cp m c t r u R U hR hU]
  rfl

/-- The hidden-state block a sweep's last step leaves, entry (r, u). -/
theorem hidden_block (c : Dev nD) (t : Fin cfg0.N) (h1 : t.val % 8 = 7) (r : Fin 1024) (u : Fin 512) (R : Fin 8192) (U : Fin 2048)
    (hR : R.val = 1024 * (t.val / 32) + r.val) (hU : U.val = 512 * (t.val / 8 % 4) + u.val) :
    (outsAt0 m c t.val t.isLt).1 (ix2 r u) = hidRes m c (ix2 R U) := by
  have h0 : ¬t.val % 8 = 0 := by omega
  have q0 := swept0 m c t h1 r u R U hR hU
  have q1 := swept1 m c t h1 r u R U hR hU
  have q2 := swept2 m c t h1 r u R U hR hU
  have q3 := swept3 m c t h1 r u R U hR hU
  rw [outsAt0_C m c t h0 h1] at q0 q1 q2 q3 ⊢
  dsimp only at q0 q1 q2 q3 ⊢
  rw [last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2] at q0
  rw [last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2] at q1
  rw [last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2] at q2
  rw [last_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2] at q3
  refine (congrFun (last_hidden (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) (ix2 r u)).trans ?_
  refine (hidden_at _ _ _ _ _ _).trans ?_
  rw [q0, q1, q2, q3, blk_cp m c t r u R U hR hU]
  rfl

/-- What a sweep's last step writes back to the cell state's array is its block of the whole-array function. -/
theorem flushed_cell (c : Dev nD) (t : Fin cfg0.N) (hf : (cfg0.win 11).flush t = true) :
    (dats m 0 c).flushed 11 t = ((cfg0.win 11).blk t).view.read (Elt Ideal) (cellRes m c) := by
  have h7 : t.val % 8 = 7 := (flush0_11 t).mp hf
  have hN : cfg0.N = 256 := N_0
  have ht : t.val < 256 := lt_of_lt_of_eq t.isLt hN
  obtain ⟨_, _, e100, e101, e110, e111⟩ := at_act t
  rw [flushed11 m c t]
  funext (y : S1024x512.Idx)
  obtain ⟨r, u, rfl⟩ : ∃ (r : Fin 1024) (u : Fin 512), y = ix2 r u := ⟨y 0, y 1, eq_ix2 y⟩
  show (outsAt0 m c t.val t.isLt).2.1 (ix2 r u) = cellRes m c (((cfg0.win 11).blk t).view.emb (ix2 r u))
  have hr := r.isLt
  have hu := u.isLt
  refine (cell_block m c t h7 r u ⟨1024 * (t.val / 32) + r.val, by omega⟩ ⟨512 * (t.val / 8 % 4) + u.val, by omega⟩ rfl rfl).trans ?_
  refine congrArg (cellRes m c) (funext fun a => Fin.ext ?_)
  match a with
  | ⟨0, _⟩ => show 1024 * (t.val / 32) + r.val = win0_11.index t (0 : Fin 2) * 1024 + 1 * r.val; omega
  | ⟨1, _⟩ => show 512 * (t.val / 8 % 4) + u.val = win0_11.index t (1 : Fin 2) * 512 + 1 * u.val; omega

/-- What a sweep's last step writes back to the hidden state's array is its block of the whole-array function. -/
theorem flushed_hidden (c : Dev nD) (t : Fin cfg0.N) (hf : (cfg0.win 10).flush t = true) :
    (dats m 0 c).flushed 10 t = ((cfg0.win 10).blk t).view.read (Elt Ideal) (hidRes m c) := by
  have h7 : t.val % 8 = 7 := (flush0_10 t).mp hf
  have hN : cfg0.N = 256 := N_0
  have ht : t.val < 256 := lt_of_lt_of_eq t.isLt hN
  obtain ⟨_, _, e100, e101, e110, e111⟩ := at_act t
  rw [flushed10 m c t]
  funext (y : S1024x512.Idx)
  obtain ⟨r, u, rfl⟩ : ∃ (r : Fin 1024) (u : Fin 512), y = ix2 r u := ⟨y 0, y 1, eq_ix2 y⟩
  show (outsAt0 m c t.val t.isLt).1 (ix2 r u) = hidRes m c (((cfg0.win 10).blk t).view.emb (ix2 r u))
  have hr := r.isLt
  have hu := u.isLt
  refine (hidden_block m c t h7 r u ⟨1024 * (t.val / 32) + r.val, by omega⟩ ⟨512 * (t.val / 8 % 4) + u.val, by omega⟩ rfl rfl).trans ?_
  refine congrArg (hidRes m c) (funext fun a => Fin.ext ?_)
  match a with
  | ⟨0, _⟩ => show 1024 * (t.val / 32) + r.val = win0_10.index t (0 : Fin 2) * 1024 + 1 * r.val; omega
  | ⟨1, _⟩ => show 512 * (t.val / 8 % 4) + u.val = win0_10.index t (1 : Fin 2) * 512 + 1 * u.val; omega

/-- Every entry of the array lies in the block some sweep's last step writes back. -/
theorem covered_hidden (i : S8192x2048.Idx) : ∃ t : Fin cfg0.N, (cfg0.win 10).flush t = true ∧ i ∈ ((cfg0.win 10).blk t).view.set := by
  have hN : cfg0.N = 256 := N_0
  have hi0 : (i 0).val < 8192 := (i 0).isLt
  have hi1 : (i 1).val < 2048 := (i 1).isLt
  let t : Fin cfg0.N := ⟨32 * ((i 0).val / 1024) + 8 * ((i 1).val / 512) + 7, by omega⟩
  have htv : t.val = 32 * ((i 0).val / 1024) + 8 * ((i 1).val / 512) + 7 := rfl
  obtain ⟨_, _, e100, e101, e110, e111⟩ := at_act t
  refine ⟨t, (flush0_10 t).mpr (by omega), ?_⟩
  show i ∈ ((View.whole main_v10_0).slice (win0_10.rect t)).set
  rw [View.set_slice_whole, Rect.mem_set_unit]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 512 ≤ (i 1).val ∧ (i 1).val < win0_10.index t (1 : Fin 2) * 512 + 512; omega

/-- Every entry of the array lies in the block some sweep's last step writes back. -/
theorem covered_cell (i : S8192x2048.Idx) : ∃ t : Fin cfg0.N, (cfg0.win 11).flush t = true ∧ i ∈ ((cfg0.win 11).blk t).view.set := by
  have hN : cfg0.N = 256 := N_0
  have hi0 : (i 0).val < 8192 := (i 0).isLt
  have hi1 : (i 1).val < 2048 := (i 1).isLt
  let t : Fin cfg0.N := ⟨32 * ((i 0).val / 1024) + 8 * ((i 1).val / 512) + 7, by omega⟩
  have htv : t.val = 32 * ((i 0).val / 1024) + 8 * ((i 1).val / 512) + 7 := rfl
  obtain ⟨_, _, e100, e101, e110, e111⟩ := at_act t
  refine ⟨t, (flush0_11 t).mpr (by omega), ?_⟩
  show i ∈ ((View.whole main_v10_1).slice (win0_11.rect t)).set
  rw [View.set_slice_whole, Rect.mem_set_unit]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 512 ≤ (i 1).val ∧ (i 1).val < win0_11.index t (1 : Fin 2) * 512 + 512; omega

/-- So the hidden state's array ends holding the whole-array function, -/
theorem final_hidden (c : Dev nD) : (dats m 0 c).arrAt 10 cfg0.N = hidRes m c :=
  (dats m 0 c).arrAt_eq_of_cover 10 (hidRes m c) (flushed_hidden m c) covered_hidden

/-- and the cell state's likewise. -/
theorem final_cell (c : Dev nD) : (dats m 0 c).arrAt 11 cfg0.N = cellRes m c :=
  (dats m 0 c).arrAt_eq_of_cover 11 (cellRes m c) (flushed_cell m c) covered_cell

/-- The kernel's run, read: the two results at the LSTM cell of the arguments, the arguments unchanged. -/
theorem run : θ_run defs (onTc (τ := τ) (main (F := Ideal))) ⟨m, fun _ => 0, ρ⟩ fun r => ∀ c : Dev nD,
      r.2.mem ((c : Thread nD τ).loc main_v10_0) = hidRes m c
      ∧ r.2.mem ((c : Thread nD τ).loc main_v10_1) = cellRes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final_hidden m c), (h c).2.1.trans (final_cell m c), (h c).2.2⟩)
    (Value.run_blocks m ρ)

end Cert.KernelIdeal.Lstm

end
-- ==== Proof.lean ====
/-
  An LSTM cell computed by one fused kernel, against its plain reference, on the extended reals.

  Both programs form `[x | h]` and, for each of the four gates, the pre-activation `[x | h] · Wᵀ + b`; the new cell state is
  `σ(f)·c_prev + σ(i)·tanh(g)` and the new hidden state `σ(o)·tanh(c_new)`. The reference stacks the four weight matrices
  and biases, does one product and cuts the result in four; the kernel walks an 8 × 4 × 8 grid of (row block, unit block,
  feature chunk), keeps one accumulator per gate that starts at the bias and gains one chunk's partial product per step,
  and applies the nonlinearities at the last chunk. Narrowing to bf16 is the identity on the extended reals, and the
  logistic function is the same `1 / (1 + e^(-x))` on both sides, so the two programs differ only in the ORDER in which
  the 4096 products and the bias of each pre-activation are added. Addition of extended reals is commutative and
  associative, so the results agree for every input; the finiteness of the inputs is not used.

  Spec.lean states the cell as one function of the argument arrays and the regrouping law; RefCell.lean reads the
  reference's two results as that function; KPieces / KPayload / KBlocks / KAccum / KFinal do the same for the kernel.
  The three frame claims are the generated frame certificates (the reference's is its generated run with the results
  dropped), and there is nothing to preserve: the idealized kernel is the kernel's own text.
-/
import proofs.«127543_j81930796139238_2_alg».proof.Defs
import proofs.«127543_j81930796139238_2_alg».proof.Proof.Gen.Kernel
import proofs.«127543_j81930796139238_2_alg».proof.Proof.Gen.Kernel.Skeleton
import proofs.«127543_j81930796139238_2_alg».proof.Proof.Gen.Kernel.Launch
import proofs.«127543_j81930796139238_2_alg».proof.Proof.Gen.Kernel.Points
import proofs.«127543_j81930796139238_2_alg».proof.Proof.Gen.Kernel.Frame
import proofs.«127543_j81930796139238_2_alg».proof.Proof.Gen.KernelIdeal
import proofs.«127543_j81930796139238_2_alg».proof.Proof.Gen.KernelIdeal.Skeleton
import proofs.«127543_j81930796139238_2_alg».proof.Proof.Gen.KernelIdeal.Launch
import proofs.«127543_j81930796139238_2_alg».proof.Proof.Gen.KernelIdeal.Points
import proofs.«127543_j81930796139238_2_alg».proof.Proof.Gen.KernelIdeal.Frame
import proofs.«127543_j81930796139238_2_alg».proof.Proof.Gen.ReferenceIdeal
import proofs.«127543_j81930796139238_2_alg».proof.Proof.Gen.KernelIdeal.Value
import proofs.«127543_j81930796139238_2_alg».proof.Proof.Gen.ReferenceIdeal.Run
import proofs.«127543_j81930796139238_2_alg».proof.Proof.Gen.ReferenceIdeal.Read
import proofs.«127543_j81930796139238_2_alg».proof.Proof.Gen.Pre_finite_inputs
import proofs.«127543_j81930796139238_2_alg».proof.Proof.RefCell
import proofs.«127543_j81930796139238_2_alg».proof.Proof.KFinal
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments alone: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the eleven arguments both programs end with the new hidden state and the new cell state of
    Spec.lean: the kernel by `Lstm.run`, the reference by its run read through `hidden_eq` and `cell_eq`. -/
theorem algebraic : Cert.algebraic_KernelIdeal_ReferenceIdeal := by
  intro m ρ m' ρ' _ hagree
  refine ⟨fun c => Cert.KernelIdeal.Lstm.hidRes m c, fun c => Cert.KernelIdeal.Lstm.cellRes m c, Cert.KernelIdeal.Lstm.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v35_eq, Cert.Lstm.Ref.hidden_eq, a0, a1, a2, a3, a4, a5, a6, a7, a8, a9, a10]
    rfl
  · obtain ⟨a0, a1, a2, a3, a4, a5, a6, a7, a8, a9, a10⟩ := hagree c
    rw [Cert.ReferenceIdeal.Read.val_main_v27_eq, Cert.Lstm.Ref.cell_eq, a0, a1, a2, a3, a4, a5, a6, a7, a8]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
